-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S800000x1 : Shape := ⟨2, ![800000, 1]⟩
abbrev S1x96 : Shape := ⟨2, ![1, 96]⟩
abbrev S96 : Shape := ⟨1, ![96]⟩
abbrev S96x96 : Shape := ⟨2, ![96, 96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S1x96 : S_.BroadcastsInDim S1x96 (![] : Fin 0 → Fin S1x96.rank)
  reducesTo_S1x96_S_d0_1 : S1x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S96 .f32) (main_arg13 : FVec F S96x96 .f32) (main_arg14 : FVec F S96 .f32) (main_v48 : IVec S_ 1) (main_v49 : FVec F S96x96 .f32) (main_v50 : FVec F S96x96 .f32) : IVec S_ 1 :=
  let main_v51 : IVec S96x96 1 := cmpf .olt main_v49 main_v50
  let main_c_19 : IVec S_ 1 := constantI S_ 1 1#1
  let main_v52 : IVec S_ 1 := (fun x v => Host.reduce IntOp.andi x v reducesTo_S96x96_S_d0_1 h_S_) main_v51 main_c_19
  let main_v53 : IVec S_ 1 := andi main_v48 main_v52
  let main_v54 : FVec F S96 .f32 := Host.absf main_arg12
  let main_cst_20 : FVec F S_ .f32 := constant S_ .f32 0x7F800000#32
  let main_v55 : FVec F S96 .f32 := broadcastInDim S96 ![] bcast_S_S96 main_cst_20
  let main_v56 : IVec S96 1 := cmpf .olt main_v54 main_v55
  let main_c_21 : IVec S_ 1 := constantI S_ 1 1#1
  let main_v57 : IVec S_ 1 := (fun x v => Host.reduce IntOp.andi x v reducesTo_S96_S_d0 h_S_) main_v56 main_c_21
  let main_v58 : IVec S_ 1 := andi main_v53 main_v57
  let main_v59 : FVec F S96x96 .f32 := Host.absf main_arg13
  let main_cst_22 : FVec F S_ .f32 := constant S_ .f32 0x7F800000#32
  let main_v60 : FVec F S96x96 .f32 := broadcastInDim S96x96 ![] bcast_S_S96x96 main_cst_22
  let main_v61 : IVec S96x96 1 := cmpf .olt main_v59 main_v60
  let main_c_23 : IVec S_ 1 := constantI S_ 1 1#1
  let main_v62 : IVec S_ 1 := (fun x v => Host.reduce IntOp.andi x v reducesTo_S96x96_S_d0_1 h_S_) main_v61 main_c_23
  let main_v63 : IVec S_ 1 := andi main_v58 main_v62
  let main_v64 : FVec F S96 .f32 := Host.absf main_arg14
  let main_cst_24 : FVec F S_ .f32 := constant S_ .f32 0x7F800000#32
  let main_v65 : FVec F S96 .f32 := broadcastInDim S96 ![] bcast_S_S96 main_cst_24
  let main_v66 : IVec S96 1 := cmpf .olt main_v64 main_v65
  let main_c_25 : IVec S_ 1 := constantI S_ 1 1#1
  let main_v67 : IVec S_ 1 := (fun x v => Host.reduce IntOp.andi x v reducesTo_S96_S_d0 h_S_) main_v66 main_c_25
  fn_part4 (F := F) main_v63 main_v67

def fn_part2 {F : FTy → Type} [FloatOps F] (main_arg8 : FVec F S96 .f32) (main_arg9 : FVec F S96x96 .f32) (main_arg10 : FVec F S96 .f32) (main_arg11 : FVec F S96x96 .f32) (main_arg12 : FVec F S96 .f32) (main_arg13 : FVec F S96x96 .f32) (main_arg14 : FVec F S96 .f32) (main_v33 : IVec S_ 1) : IVec S_ 1 :=
  let main_v34 : FVec F S96 .f32 := Host.absf main_arg8
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96x96 .f32 := Host.absf main_arg9
  let main_cst_14 : FVec F S_ .f32 := constant S_ .f32 0x7F800000#32
  let main_v40 : FVec F S96x96 .f32 := broadcastInDim S96x96 ![] bcast_S_S96x96 main_cst_14
  let main_v41 : IVec S96x96 1 := cmpf .olt main_v39 main_v40
  let main_c_15 : IVec S_ 1 := constantI S_ 1 1#1
  let main_v42 : IVec S_ 1 := (fun x v => Host.reduce IntOp.andi x v reducesTo_S96x96_S_d0_1 h_S_) main_v41 main_c_15
  let main_v43 : IVec S_ 1 := andi main_v38 main_v42
  let main_v44 : FVec F S96 .f32 := Host.absf main_arg10
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_v49 : FVec F S96x96 .f32 := Host.absf main_arg11
  let main_cst_18 : FVec F S_ .f32 := constant S_ .f32 0x7F800000#32
  let main_v50 : FVec F S96x96 .f32 := broadcastInDim S96x96 ![] bcast_S_S96x96 main_cst_18
  fn_part3 (F := F) main_arg12 main_arg13 main_arg14 main_v48 main_v49 main_v50

def fn_part1 {F : FTy → Type} [FloatOps F] (main_arg5 : FVec F S96x96 .f32) (main_arg6 : FVec F S96 .f32) (main_arg7 : FVec F S96x96 .f32) (main_arg8 : FVec F S96 .f32) (main_arg9 : FVec F S96x96 .f32) (main_arg10 : FVec F S96 .f32) (main_arg11 : FVec F S96x96 .f32) (main_arg12 : FVec F S96 .f32) (main_arg13 : FVec F S96x96 .f32) (main_arg14 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg5
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x96 .f32 := Host.absf main_arg7
  let main_cst_10 : FVec F S_ .f32 := constant S_ .f32 0x7F800000#32
  let main_v30 : FVec F S96x96 .f32 := broadcastInDim S96x96 ![] bcast_S_S96x96 main_cst_10
  let main_v31 : IVec S96x96 1 := cmpf .olt main_v29 main_v30
  let main_c_11 : IVec S_ 1 := constantI S_ 1 1#1
  let main_v32 : IVec S_ 1 := (fun x v => Host.reduce IntOp.andi x v reducesTo_S96x96_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x96 .f32) (main_arg1 : IVec S2x800000 32) (main_arg2 : FVec F S800000x1 .f32) (main_arg3 : FVec F S1x96 .f32) (main_arg4 : FVec F S96 .f32) (main_arg5 : FVec F S96x96 .f32) (main_arg6 : FVec F S96 .f32) (main_arg7 : FVec F S96x96 .f32) (main_arg8 : FVec F S96 .f32) (main_arg9 : FVec F S96x96 .f32) (main_arg10 : FVec F S96 .f32) (main_arg11 : FVec F S96x96 .f32) (main_arg12 : FVec F S96 .f32) (main_arg13 : FVec F S96x96 .f32) (main_arg14 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S1x96 .f32 := Host.absf main_arg3
  let main_cst_2 : FVec F S_ .f32 := constant S_ .f32 0x7F800000#32
  let main_v10 : FVec F S1x96 .f32 := broadcastInDim S1x96 ![] bcast_S_S1x96 main_cst_2
  let main_v11 : IVec S1x96 1 := cmpf .olt main_v9 main_v10
  let main_c_3 : IVec S_ 1 := constantI S_ 1 1#1
  let main_v12 : IVec S_ 1 := (fun x v => Host.reduce IntOp.andi x v reducesTo_S1x96_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x96 : Shape := ⟨2, ![50000, 96]⟩
abbrev S2x800000 : Shape := ⟨2, ![2, 800000]⟩
abbrev S800000x1 : Shape := ⟨2, ![800000, 1]⟩
abbrev S1x96 : Shape := ⟨2, ![1, 96]⟩
abbrev S96 : Shape := ⟨1, ![96]⟩
abbrev S96x96 : Shape := ⟨2, ![96, 96]⟩
abbrev S1x800000 : Shape := ⟨2, ![1, 800000]⟩
abbrev S800000 : Shape := ⟨1, ![800000]⟩
abbrev S_ : Shape := ⟨0, ![]⟩
abbrev S800000x96 : Shape := ⟨2, ![800000, 96]⟩
abbrev S4000x1 : Shape := ⟨2, ![4000, 1]⟩
abbrev S4000x96 : Shape := ⟨2, ![4000, 96]⟩
abbrev S5000x96 : Shape := ⟨2, ![5000, 96]⟩

abbrev nBuf : Space → Nat
  | .hbm => 61
  | .vmem => 40
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000x1, .f32⟩
  | .hbm, ⟨3, _⟩ => ⟨S1x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S96x96, .f32⟩
  | .hbm, ⟨8, _⟩ => ⟨S96, .f32⟩
  | .hbm, ⟨9, _⟩ => ⟨S96x96, .f32⟩
  | .hbm, ⟨10, _⟩ => ⟨S96, .f32⟩
  | .hbm, ⟨11, _⟩ => ⟨S96x96, .f32⟩
  | .hbm, ⟨12, _⟩ => ⟨S96, .f32⟩
  | .hbm, ⟨13, _⟩ => ⟨S96x96, .f32⟩
  | .hbm, ⟨14, _⟩ => ⟨S96, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S1x96, .f32⟩
  | .hbm, ⟨20, _⟩ => ⟨S1x96, .f32⟩
  | .hbm, ⟨21, _⟩ => ⟨S1x96, .f32⟩
  | .hbm, ⟨22, _⟩ => ⟨S1x96, .f32⟩
  | .hbm, ⟨23, _⟩ => ⟨S1x96, .f32⟩
  | .hbm, ⟨24, _⟩ => ⟨S1x96, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x96, .f32⟩
  | .hbm, ⟨34, _⟩ => ⟨S800000x96, .f32⟩
  | .hbm, ⟨35, _⟩ => ⟨S_, .f32⟩
  | .hbm, ⟨36, _⟩ => ⟨S50000x96, .f32⟩
  | .hbm, ⟨37, _⟩ => ⟨S800000x1, .i32⟩
  | .hbm, ⟨38, _⟩ => ⟨S50000x96, .f32⟩
  | .hbm, ⟨39, _⟩ => ⟨S50000x96, .f32⟩
  | .hbm, ⟨40, _⟩ => ⟨S_, .f32⟩
  | .hbm, ⟨41, _⟩ => ⟨S50000x96, .f32⟩
  | .hbm, ⟨42, _⟩ => ⟨S50000x96, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x96, .f32⟩
  | .hbm, ⟨52, _⟩ => ⟨S800000x96, .f32⟩
  | .hbm, ⟨53, _⟩ => ⟨S_, .f32⟩
  | .hbm, ⟨54, _⟩ => ⟨S50000x96, .f32⟩
  | .hbm, ⟨55, _⟩ => ⟨S800000x1, .i32⟩
  | .hbm, ⟨56, _⟩ => ⟨S50000x96, .f32⟩
  | .hbm, ⟨57, _⟩ => ⟨S50000x96, .f32⟩
  | .hbm, ⟨58, _⟩ => ⟨S_, .f32⟩
  | .hbm, ⟨59, _⟩ => ⟨S50000x96, .f32⟩
  | .hbm, ⟨60, _⟩ => ⟨S50000x96, .f32⟩
  | .local _ .vmem, ⟨0, _⟩ => ⟨S4000x1, .f32⟩
  | .local _ .vmem, ⟨1, _⟩ => ⟨S4000x1, .f32⟩
  | .local _ .vmem, ⟨2, _⟩ => ⟨S4000x96, .f32⟩
  | .local _ .vmem, ⟨3, _⟩ => ⟨S4000x96, .f32⟩
  | .local _ .vmem, ⟨4, _⟩ => ⟨S1x96, .f32⟩
  | .local _ .vmem, ⟨5, _⟩ => ⟨S1x96, .f32⟩
  | .local _ .vmem, ⟨6, _⟩ => ⟨S96x96, .f32⟩
  | .local _ .vmem, ⟨7, _⟩ => ⟨S1x96, .f32⟩
  | .local _ .vmem, ⟨8, _⟩ => ⟨S4000x96, .f32⟩
  | .local _ .vmem, ⟨9, _⟩ => ⟨S4000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x96, .f32⟩
  | .local _ .vmem, ⟨14, _⟩ => ⟨S96x96, .f32⟩
  | .local _ .vmem, ⟨15, _⟩ => ⟨S1x96, .f32⟩
  | .local _ .vmem, ⟨16, _⟩ => ⟨S96x96, .f32⟩
  | .local _ .vmem, ⟨17, _⟩ => ⟨S1x96, .f32⟩
  | .local _ .vmem, ⟨18, _⟩ => ⟨S5000x96, .f32⟩
  | .local _ .vmem, ⟨19, _⟩ => ⟨S5000x96, .f32⟩
  | .local _ .vmem, ⟨20, _⟩ => ⟨S4000x1, .f32⟩
  | .local _ .vmem, ⟨21, _⟩ => ⟨S4000x1, .f32⟩
  | .local _ .vmem, ⟨22, _⟩ => ⟨S4000x96, .f32⟩
  | .local _ .vmem, ⟨23, _⟩ => ⟨S4000x96, .f32⟩
  | .local _ .vmem, ⟨24, _⟩ => ⟨S1x96, .f32⟩
  | .local _ .vmem, ⟨25, _⟩ => ⟨S1x96, .f32⟩
  | .local _ .vmem, ⟨26, _⟩ => ⟨S96x96, .f32⟩
  | .local _ .vmem, ⟨27, _⟩ => ⟨S1x96, .f32⟩
  | .local _ .vmem, ⟨28, _⟩ => ⟨S4000x96, .f32⟩
  | .local _ .vmem, ⟨29, _⟩ => ⟨S4000x96, .f32⟩
  | .local _ .vmem, ⟨30, _⟩ => ⟨S5000x96, .f32⟩
  | .local _ .vmem, ⟨31, _⟩ => ⟨S5000x96, .f32⟩
  | .local _ .vmem, ⟨32, _⟩ => ⟨S5000x96, .f32⟩
  | .local _ .vmem, ⟨33, _⟩ => ⟨S5000x96, .f32⟩
  | .local _ .vmem, ⟨34, _⟩ => ⟨S96x96, .f32⟩
  | .local _ .vmem, ⟨35, _⟩ => ⟨S1x96, .f32⟩
  | .local _ .vmem, ⟨36, _⟩ => ⟨S96x96, .f32⟩
  | .local _ .vmem, ⟨37, _⟩ => ⟨S1x96, .f32⟩
  | .local _ .vmem, ⟨38, _⟩ => ⟨S5000x96, .f32⟩
  | .local _ .vmem, ⟨39, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call0_cst : Ref sig .tc := ⟨.hbm, 40, rfl⟩
abbrev main_call0_v0 : Ref sig .tc := ⟨.hbm, 41, rfl⟩
abbrev main_v22 : Ref sig .tc := ⟨.hbm, 42, rfl⟩
abbrev main_c_1 : Ref sig .tc := ⟨.hbm, 43, rfl⟩
abbrev main_v23 : Ref sig .tc := ⟨.hbm, 44, rfl⟩
abbrev main_v24 : Ref sig .tc := ⟨.hbm, 45, rfl⟩
abbrev main_c_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call1_cst : Ref sig .tc := ⟨.hbm, 58, rfl⟩
abbrev main_call1_v0 : Ref sig .tc := ⟨.hbm, 59, rfl⟩
abbrev main_v35 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x96 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S96x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x96 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x96 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S96x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S96x96 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x96 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x96 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S96_S1x96 : S96.ShapeCasts S1x96
  bcast_S_S800000 : S_.BroadcastsInDim S800000 (![] : Fin 0 → Fin S800000.rank)
  bcast_S800000_S800000x1_0 : S800000.BroadcastsInDim S800000x1 (![0] : Fin 1 → Fin S800000x1.rank)
  inb_S4000x1_S4000x1_0_0 : ∀ a, (![0, 0] : Fin 2 → Nat) a + S4000x1.size a ≤ S4000x1.size a
  h_S4000x1 : 0 < S4000x1.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S4000x1_S4000x96 : S4000x1.Broadcasts S4000x96
  broadcasts_S1x96_S4000x96 : S1x96.Broadcasts S4000x96
  inb_S96x96_S96x96_0_0 : ∀ a, (![0, 0] : Fin 2 → Nat) a + S96x96.size a ≤ S96x96.size a
  h_S96x96 : 0 < S96x96.numel
  bitsLt_bf16_f32 : FTy.bits .bf16 < FTy.bits .f32
  inb_S4000x96_S4000x96_0_0 : ∀ a, (![0, 0] : Fin 2 → Nat) a + S4000x96.size a ≤ S4000x96.size a
  h_S4000x96 : 0 < S4000x96.numel
  shapeCasts_S4000x96_S4000x96 : S4000x96.ShapeCasts S4000x96
  bcast_S_S50000x96 : S_.BroadcastsInDim S50000x96 (![] : Fin 0 → Fin S50000x96.rank)
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  broadcasts_S1x96_S5000x96 : S1x96.Broadcasts S5000x96
  gather_S50000x96_S800000x1_S800000x96_1_0_n_n_0_1_196_wf : GatherDims.WF S50000x96 S800000x1 S800000x96 [1] [0] [] [0] [] 1 ![1, 96]
  dot_S4000x96_S96x96_S4000x96_1_0_0_1_n_n_wf : DotDims.WF S4000x96 S96x96 S4000x96 [1] [0] [0] [1] [] []
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x1.size a ≤ S800000x1.size a
  hwx0_0 : ∀ i : grid0.Coords, EltTy.bits .f32 = 32 ∨ (Rect.block (s := S800000x1) S4000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x96.size a ≤ S800000x96.size a
  hwx0_1 : ∀ i : grid0.Coords, EltTy.bits .f32 = 32 ∨ (Rect.block (s := S800000x96) S4000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .f32 = 32 ∨ (Rect.block (s := S96x96) S96x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x96.size a ≤ S800000x96.size a
  hwx0_6 : ∀ i : grid0.Coords, EltTy.bits .f32 = 32 ∨ (Rect.block (s := S800000x96) S4000x96.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x96.size a ≤ S96x96.size a
  hwx1_4 : ∀ i : grid1.Coords, EltTy.bits .f32 = 32 ∨ (Rect.block (s := S96x96) S96x96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x96.size a ≤ S1x96.size a
  hwx1_5 : ∀ i : grid1.Coords, EltTy.bits .f32 = 32 ∨ (Rect.block (s := S1x96) S1x96.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x96.size a ≤ S50000x96.size a
  hwx1_6 : ∀ i : grid1.Coords, EltTy.bits .f32 = 32 ∨ (Rect.block (s := S50000x96) S5000x96.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x1.size a ≤ S800000x1.size a
  hwx2_0 : ∀ i : grid2.Coords, EltTy.bits .f32 = 32 ∨ (Rect.block (s := S800000x1) S4000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x96.size a ≤ S800000x96.size a
  hwx2_1 : ∀ i : grid2.Coords, EltTy.bits .f32 = 32 ∨ (Rect.block (s := S800000x96) S4000x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x96.size a ≤ S1x96.size a
  hwx2_2 : ∀ i : grid2.Coords, EltTy.bits .f32 = 32 ∨ (Rect.block (s := S1x96) S1x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S96x96.size a ≤ S96x96.size a
  hwx2_4 : ∀ i : grid2.Coords, EltTy.bits .f32 = 32 ∨ (Rect.block (s := S96x96) S96x96.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x96.size a ≤ S1x96.size a
  hwx2_5 : ∀ i : grid2.Coords, EltTy.bits .f32 = 32 ∨ (Rect.block (s := S1x96) S1x96.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x96.size a ≤ S800000x96.size a
  hwx2_6 : ∀ i : grid2.Coords, EltTy.bits .f32 = 32 ∨ (Rect.block (s := S800000x96) S4000x96.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x96.size a ≤ S50000x96.size a
  hwx3_1 : ∀ i : grid3.Coords, EltTy.bits .f32 = 32 ∨ (Rect.block (s := S50000x96) S5000x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S96x96.size a ≤ S96x96.size a
  hwx3_2 : ∀ i : grid3.Coords, EltTy.bits .f32 = 32 ∨ (Rect.block (s := S96x96) S96x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x96.size a ≤ S1x96.size a
  hwx3_3 : ∀ i : grid3.Coords, EltTy.bits .f32 = 32 ∨ (Rect.block (s := S1x96) S1x96.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S96x96.size a ≤ S96x96.size a
  hwx3_4 : ∀ i : grid3.Coords, EltTy.bits .f32 = 32 ∨ (Rect.block (s := S96x96) S96x96.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x96.size a ≤ S1x96.size a
  hwx3_5 : ∀ i : grid3.Coords, EltTy.bits .f32 = 32 ∨ (Rect.block (s := S1x96) S1x96.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x96.size a ≤ S50000x96.size a
  hwx3_6 : ∀ i : grid3.Coords, EltTy.bits .f32 = 32 ∨ (Rect.block (s := S50000x96) S5000x96.size (cc3_transform_6 i) (hinb3_6 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S4000x96_S96x96_S4000x96_1_0_0_1_n_n : DotDims S4000x96 S96x96 S4000x96 where
  lhsContracting := [1]
  rhsContracting := [0]
  lhsNonContracting := [0]
  rhsNonContracting := [1]
  lhsBatch := []
  rhsBatch := []
  wf := dot_S4000x96_S96x96_S4000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf

abbrev win0_0 : Pipeline.Window sig grid0 :=
  Pipeline.Window.ofSpec (Memref.whole main_arg2) S4000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S4000x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S96x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S5000x96.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg2) S4000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S4000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S1x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S96x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S1x96.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v30) S4000x96.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v22) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S5000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S96x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v8) S1x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S96x96.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v9) S1x96.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v34) S5000x96.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S800000x1 : Shape := ⟨2, ![800000, 1]⟩
abbrev S1x96 : Shape := ⟨2, ![1, 96]⟩
abbrev S96 : Shape := ⟨1, ![96]⟩
abbrev S96x96 : Shape := ⟨2, ![96, 96]⟩
abbrev S1x800000 : Shape := ⟨2, ![1, 800000]⟩
abbrev S800000 : Shape := ⟨1, ![800000]⟩
abbrev S800000x96 : Shape := ⟨2, ![800000, 96]⟩
abbrev S_ : Shape := ⟨0, ![]⟩

abbrev nBuf : Space → Nat
  | .hbm => 100
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000x1, .f32⟩
  | .hbm, ⟨3, _⟩ => ⟨S1x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S96x96, .f32⟩
  | .hbm, ⟨8, _⟩ => ⟨S96, .f32⟩
  | .hbm, ⟨9, _⟩ => ⟨S96x96, .f32⟩
  | .hbm, ⟨10, _⟩ => ⟨S96, .f32⟩
  | .hbm, ⟨11, _⟩ => ⟨S96x96, .f32⟩
  | .hbm, ⟨12, _⟩ => ⟨S96, .f32⟩
  | .hbm, ⟨13, _⟩ => ⟨S96x96, .f32⟩
  | .hbm, ⟨14, _⟩ => ⟨S96, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S800000x96, .f32⟩
  | .hbm, ⟨20, _⟩ => ⟨S1x96, .f32⟩
  | .hbm, ⟨21, _⟩ => ⟨S800000x96, .f32⟩
  | .hbm, ⟨22, _⟩ => ⟨S800000x96, .f32⟩
  | .hbm, ⟨23, _⟩ => ⟨S_, .f32⟩
  | .hbm, ⟨24, _⟩ => ⟨S800000x96, .f32⟩
  | .hbm, ⟨25, _⟩ => ⟨S800000x96, .f32⟩
  | .hbm, ⟨26, _⟩ => ⟨S800000x96, .f32⟩
  | .hbm, ⟨27, _⟩ => ⟨S1x96, .f32⟩
  | .hbm, ⟨28, _⟩ => ⟨S800000x96, .f32⟩
  | .hbm, ⟨29, _⟩ => ⟨S800000x96, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x96, .f32⟩
  | .hbm, ⟨39, _⟩ => ⟨S800000x96, .f32⟩
  | .hbm, ⟨40, _⟩ => ⟨S_, .f32⟩
  | .hbm, ⟨41, _⟩ => ⟨S800000x96, .f32⟩
  | .hbm, ⟨42, _⟩ => ⟨S800000x96, .f32⟩
  | .hbm, ⟨43, _⟩ => ⟨S_, .f32⟩
  | .hbm, ⟨44, _⟩ => ⟨S50000x96, .f32⟩
  | .hbm, ⟨45, _⟩ => ⟨S800000x1, .i32⟩
  | .hbm, ⟨46, _⟩ => ⟨S50000x96, .f32⟩
  | .hbm, ⟨47, _⟩ => ⟨S50000x96, .f32⟩
  | .hbm, ⟨48, _⟩ => ⟨S50000x96, .f32⟩
  | .hbm, ⟨49, _⟩ => ⟨S1x96, .f32⟩
  | .hbm, ⟨50, _⟩ => ⟨S50000x96, .f32⟩
  | .hbm, ⟨51, _⟩ => ⟨S50000x96, .f32⟩
  | .hbm, ⟨52, _⟩ => ⟨S_, .f32⟩
  | .hbm, ⟨53, _⟩ => ⟨S50000x96, .f32⟩
  | .hbm, ⟨54, _⟩ => ⟨S50000x96, .f32⟩
  | .hbm, ⟨55, _⟩ => ⟨S50000x96, .f32⟩
  | .hbm, ⟨56, _⟩ => ⟨S1x96, .f32⟩
  | .hbm, ⟨57, _⟩ => ⟨S50000x96, .f32⟩
  | .hbm, ⟨58, _⟩ => ⟨S50000x96, .f32⟩
  | .hbm, ⟨59, _⟩ => ⟨S_, .f32⟩
  | .hbm, ⟨60, _⟩ => ⟨S50000x96, .f32⟩
  | .hbm, ⟨61, _⟩ => ⟨S50000x96, .f32⟩
  | .hbm, ⟨62, _⟩ => ⟨S_, .f32⟩
  | .hbm, ⟨63, _⟩ => ⟨S50000x96, .f32⟩
  | .hbm, ⟨64, _⟩ => ⟨S50000x96, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x96, .f32⟩
  | .hbm, ⟨74, _⟩ => ⟨S800000x96, .f32⟩
  | .hbm, ⟨75, _⟩ => ⟨S_, .f32⟩
  | .hbm, ⟨76, _⟩ => ⟨S800000x96, .f32⟩
  | .hbm, ⟨77, _⟩ => ⟨S800000x96, .f32⟩
  | .hbm, ⟨78, _⟩ => ⟨S_, .f32⟩
  | .hbm, ⟨79, _⟩ => ⟨S50000x96, .f32⟩
  | .hbm, ⟨80, _⟩ => ⟨S800000x1, .i32⟩
  | .hbm, ⟨81, _⟩ => ⟨S50000x96, .f32⟩
  | .hbm, ⟨82, _⟩ => ⟨S50000x96, .f32⟩
  | .hbm, ⟨83, _⟩ => ⟨S50000x96, .f32⟩
  | .hbm, ⟨84, _⟩ => ⟨S1x96, .f32⟩
  | .hbm, ⟨85, _⟩ => ⟨S50000x96, .f32⟩
  | .hbm, ⟨86, _⟩ => ⟨S50000x96, .f32⟩
  | .hbm, ⟨87, _⟩ => ⟨S_, .f32⟩
  | .hbm, ⟨88, _⟩ => ⟨S50000x96, .f32⟩
  | .hbm, ⟨89, _⟩ => ⟨S50000x96, .f32⟩
  | .hbm, ⟨90, _⟩ => ⟨S50000x96, .f32⟩
  | .hbm, ⟨91, _⟩ => ⟨S1x96, .f32⟩
  | .hbm, ⟨92, _⟩ => ⟨S50000x96, .f32⟩
  | .hbm, ⟨93, _⟩ => ⟨S50000x96, .f32⟩
  | .hbm, ⟨94, _⟩ => ⟨S_, .f32⟩
  | .hbm, ⟨95, _⟩ => ⟨S50000x96, .f32⟩
  | .hbm, ⟨96, _⟩ => ⟨S50000x96, .f32⟩
  | .hbm, ⟨97, _⟩ => ⟨S_, .f32⟩
  | .hbm, ⟨98, _⟩ => ⟨S50000x96, .f32⟩
  | .hbm, ⟨99, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call0_cst : Ref sig .tc := ⟨.hbm, 23, rfl⟩
abbrev main_call0_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call1_cst : Ref sig .tc := ⟨.hbm, 40, rfl⟩
abbrev main_call1_v0 : Ref sig .tc := ⟨.hbm, 41, rfl⟩
abbrev main_v21 : Ref sig .tc := ⟨.hbm, 42, rfl⟩
abbrev main_cst : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call2_cst : Ref sig .tc := ⟨.hbm, 52, rfl⟩
abbrev main_call2_v0 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call3_cst : Ref sig .tc := ⟨.hbm, 59, rfl⟩
abbrev main_call3_v0 : Ref sig .tc := ⟨.hbm, 60, rfl⟩
abbrev main_v35 : Ref sig .tc := ⟨.hbm, 61, rfl⟩
abbrev main_call4_cst : Ref sig .tc := ⟨.hbm, 62, rfl⟩
abbrev main_call4_v0 : Ref sig .tc := ⟨.hbm, 63, rfl⟩
abbrev main_v36 : Ref sig .tc := ⟨.hbm, 64, rfl⟩
abbrev main_c_1 : Ref sig .tc := ⟨.hbm, 65, rfl⟩
abbrev main_v37 : Ref sig .tc := ⟨.hbm, 66, rfl⟩
abbrev main_v38 : Ref sig .tc := ⟨.hbm, 67, rfl⟩
abbrev main_c_2 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call5_cst : Ref sig .tc := ⟨.hbm, 75, rfl⟩
abbrev main_call5_v0 : Ref sig .tc := ⟨.hbm, 76, rfl⟩
abbrev main_v45 : Ref sig .tc := ⟨.hbm, 77, rfl⟩
abbrev main_cst_3 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_call6_cst : Ref sig .tc := ⟨.hbm, 87, rfl⟩
abbrev main_call6_v0 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_call7_cst : Ref sig .tc := ⟨.hbm, 94, rfl⟩
abbrev main_call7_v0 : Ref sig .tc := ⟨.hbm, 95, rfl⟩
abbrev main_v59 : Ref sig .tc := ⟨.hbm, 96, rfl⟩
abbrev main_call8_cst : Ref sig .tc := ⟨.hbm, 97, rfl⟩
abbrev main_call8_v0 : Ref sig .tc := ⟨.hbm, 98, rfl⟩
abbrev main_v60 : Ref sig .tc := ⟨.hbm, 99, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S96_S1x96_1 : S96.BroadcastsInDim S1x96 (![1] : Fin 1 → Fin S1x96.rank)
  bcast_S1x96_S800000x96_0_1 : S1x96.BroadcastsInDim S800000x96 (![0, 1] : Fin 2 → Fin S800000x96.rank)
  bcast_S_S800000x96 : S_.BroadcastsInDim S800000x96 (![] : Fin 0 → Fin S800000x96.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S1x96_S50000x96_0_1 : S1x96.BroadcastsInDim S50000x96 (![0, 1] : Fin 2 → Fin S50000x96.rank)
  dot_S800000x1_S1x96_S800000x96_1_0_0_1_n_n_wf : DotDims.WF S800000x1 S1x96 S800000x96 [1] [0] [0] [1] [] []
  dot_S800000x96_S96x96_S800000x96_1_0_0_1_n_n_wf : DotDims.WF S800000x96 S96x96 S800000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []

variable [Facts₀]

def dot_S800000x1_S1x96_S800000x96_1_0_0_1_n_n : DotDims S800000x1 S1x96 S800000x96 where
  lhsContracting := [1]
  rhsContracting := [0]
  lhsNonContracting := [0]
  rhsNonContracting := [1]
  lhsBatch := []
  rhsBatch := []
  wf := dot_S800000x1_S1x96_S800000x96_1_0_0_1_n_n_wf
def dot_S800000x96_S96x96_S800000x96_1_0_0_1_n_n : DotDims S800000x96 S96x96 S800000x96 where
  lhsContracting := [1]
  rhsContracting := [0]
  lhsNonContracting := [0]
  rhsNonContracting := [1]
  lhsBatch := []
  rhsBatch := []
  wf := dot_S800000x96_S96x96_S800000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf

class Facts : Prop extends Facts₀ where

variable [Facts]
-- ==== Proof.Spec.lean ====
/-
  The two dense stages of a GINE message-passing layer as whole-array functions on the extended reals, entry by
  entry, and the two-layer network built from them over an abstract row gather and an abstract scatter-add.

  * The edge stage: for edge i and channel c,
      msg (i, c) = max (xs (i, c) + ((∑ k, max (attr (i, 0) · wl0 (0, k) + bl0 k) 0 · wl1 (k, c)) + bl1 c)) 0,
    where xs holds the source node's features gathered per edge.
  * The node stage: for node n and channel c,
      h (n, c) = max ((∑ k, max ((∑ l, (x (n, l) + agg (n, l)) · w1 (l, k)) + b1 k) 0 · w2 (k, c)) + b2 c) 0.
  * One layer gathers, forms the messages, scatter-adds them per target node and applies the node stage; the network is
    two layers, each followed by one more max with 0.

  The zero that max compares with is kept as the value of the all-zero 32-bit pattern; it is never evaluated.
-/
import Idealize.ShloMosaic.Lib.ValueIdx
import Idealize.ShloMosaic.PureOps.Ideal

noncomputable section

namespace Cert.Gine

open Idealize.ShloMosaic Idealize.ShloMosaic.ValueIdx

abbrev SNxC : Shape := ⟨2, ![50000, 96]⟩
abbrev SExC : Shape := ⟨2, ![800000, 96]⟩
abbrev SEx1 : Shape := ⟨2, ![800000, 1]⟩
abbrev S1xC : Shape := ⟨2, ![1, 96]⟩
abbrev SC : Shape := ⟨1, ![96]⟩
abbrev SCxC : Shape := ⟨2, ![96, 96]⟩

/-- The value of the all-zero pattern: what every max in the network compares with. -/
abbrev zero : Ideal .f32 := Ideal.ofBits .f32 0x00000000#32

/-- The hidden edge embedding before the second linear map: max (attr (i, 0) · wl0 (0, k) + bl0 k) 0. -/
def edgeHidden (attr : FVec Ideal SEx1 .f32) (wl0 : FVec Ideal S1xC .f32) (bl0 : FVec Ideal SC .f32)
    (i : Fin 800000) (k : Fin 96) : Ideal .f32 :=
  max (attr (ix2 i (0 : Fin 1)) * wl0 (ix2 (0 : Fin 1) k) + bl0 (ix1 k)) zero

/-- The message of an edge: max (xs + (hidden · wl1 + bl1)) 0, entry by entry. -/
def edgeMsg (attr : FVec Ideal SEx1 .f32) (xs : FVec Ideal SExC .f32) (wl0 : FVec Ideal S1xC .f32)
    (bl0 : FVec Ideal SC .f32) (wl1 : FVec Ideal SCxC .f32) (bl1 : FVec Ideal SC .f32) : FVec Ideal SExC .f32 :=
  fun j => max (xs (ix2 (j 0) (j 1))
    + ((∑ k : Fin 96, edgeHidden attr wl0 bl0 (j 0) k * wl1 (ix2 k (j 1))) + bl1 (ix1 (j 1)))) zero

/-- The first node linear map with its max: max ((∑ l, (x + agg) (n, l) · w1 (l, k)) + b1 k) 0. -/
def nodeHidden (x agg : FVec Ideal SNxC .f32) (w1 : FVec Ideal SCxC .f32) (b1 : FVec Ideal SC .f32)
    (n : Fin 50000) (k : Fin 96) : Ideal .f32 :=
  max ((∑ l : Fin 96, (x (ix2 n l) + agg (ix2 n l)) * w1 (ix2 l k)) + b1 (ix1 k)) zero

/-- The node update: max ((∑ k, hidden (n, k) · w2 (k, c)) + b2 c) 0, entry by entry. -/
def nodeMlp (x agg : FVec Ideal SNxC .f32) (w1 : FVec Ideal SCxC .f32) (b1 : FVec Ideal SC .f32)
    (w2 : FVec Ideal SCxC .f32) (b2 : FVec Ideal SC .f32) : FVec Ideal SNxC .f32 :=
  fun j => max ((∑ k : Fin 96, nodeHidden x agg w1 b1 (j 0) k * w2 (ix2 k (j 1))) + b2 (ix1 (j 1))) zero

/-- One more max with 0 over a node array. -/
def relu (x : FVec Ideal SNxC .f32) : FVec Ideal SNxC .f32 := fun j => max (x j) zero

/-- A bias kept as a one-row matrix, read as a vector. -/
def rowVec (r : FVec Ideal S1xC .f32) : FVec Ideal SC .f32 := fun i => r (ix2 (0 : Fin 1) (i 0))

/-- One GINE layer over an abstract per-edge gather of node rows and an abstract per-node sum of edge rows. -/
def layer (gath : FVec Ideal SNxC .f32 → FVec Ideal SExC .f32) (scat : FVec Ideal SExC .f32 → FVec Ideal SNxC .f32)
    (attr : FVec Ideal SEx1 .f32) (wl0 : FVec Ideal S1xC .f32) (bl0 : FVec Ideal SC .f32) (wl1 : FVec Ideal SCxC .f32)
    (bl1 : FVec Ideal SC .f32) (x : FVec Ideal SNxC .f32) (w1 : FVec Ideal SCxC .f32) (b1 : FVec Ideal SC .f32)
    (w2 : FVec Ideal SCxC .f32) (b2 : FVec Ideal SC .f32) : FVec Ideal SNxC .f32 :=
  nodeMlp x (scat (edgeMsg attr (gath x) wl0 bl0 wl1 bl1)) w1 b1 w2 b2

/-- The two-layer network. -/
def net (gath : FVec Ideal SNxC .f32 → FVec Ideal SExC .f32) (scat : FVec Ideal SExC .f32 → FVec Ideal SNxC .f32)
    (x : FVec Ideal SNxC .f32) (attr : FVec Ideal SEx1 .f32) (wl0 : FVec Ideal S1xC .f32) (bl0 : FVec Ideal SC .f32)
    (wl1 : FVec Ideal SCxC .f32) (bl1 : FVec Ideal SC .f32)
    (w00 : FVec Ideal SCxC .f32) (b00 : FVec Ideal SC .f32) (w01 : FVec Ideal SCxC .f32) (b01 : FVec Ideal SC .f32)
    (w10 : FVec Ideal SCxC .f32) (b10 : FVec Ideal SC .f32) (w11 : FVec Ideal SCxC .f32) (b11 : FVec Ideal SC .f32) :
    FVec Ideal SNxC .f32 :=
  relu (layer gath scat attr wl0 bl0 wl1 bl1
    (relu (layer gath scat attr wl0 bl0 wl1 bl1 x w00 b00 w01 b01)) w10 b10 w11 b11)

end Cert.Gine

end
-- ==== Proof.RefNet.lean ====
/-
  The reference program, read stage by stage, is the two-layer network of the specification taken over the program's
  own per-edge row gather and per-node scatter-add.

  * Edge stage. For any gathered array xs, edge a and channel c, the program forms
      max (xs (a, c) + ((∑ k, h (a, k) · wl1 (k, c)) + bl1 c)) 0,   h (a, k) = max (attr (a, 0) · wl0 (0, k) + bl0 k) 0;
    the first contraction runs over an axis of size one, so its sum is its single term, and each bias is a vector
    broadcast first to one row and then to every row, so it is read at the channel alone.
  * Node stage. For node n and channel c, with agg the scatter-add of the messages,
      max ((∑ k, max ((∑ l, (x (n, l) + agg (n, l)) · w1 (l, k)) + b1 k) 0 · w2 (k, c)) + b2 c) 0.
    Both sums run over the 96 channels in the same order as the specification's.
  * The gather and the scatter-add are never opened: they enter only as functions of the node array and of the edge
    array. The second layer gathers and scatters with the same edge sources and targets and from the same zero array
    as the first, so one gather and one scatter-add serve both layers.
  * Each layer is followed by one more max with 0.

  Nothing beyond reading each operation at an index is used; the zero stays the value of the all-zero pattern.
-/
import proofs.«105474_j29618094473563_1_alg».proof.Proof.Gen.ReferenceIdeal.Read
import proofs.«105474_j29618094473563_1_alg».proof.Proof.Spec

noncomputable section

namespace Cert.RefNet

open Cert.ReferenceIdeal Cert.ReferenceIdeal.Read Idealize.ShloMosaic Idealize.ShloMosaic.ValueIdx

/-- A float array of shape `s`, as the reference's stages are typed. -/
abbrev Arr (s : Shape) : Type := (⟨s, .f32⟩ : BufTy).Contents (Elt Ideal)

/-! ## The edge stage -/

/-- The hidden edge embedding read at edge `a`, channel `k`: the contraction over the single attribute column is its one term. -/
theorem hidden_at (x2 : Arr S800000x1) (x3 : Arr S1x96) (x4 : Arr S96) (a : Fin 800000) (k : Fin 96) :
    val_main_v8 (F := Ideal) x2 x3 x4 (ix2 a k) = Cert.Gine.edgeHidden x2 x3 x4 a k := by
  unfold Cert.Gine.edgeHidden
  rw [val_main_v8_apply, val_main_v7_apply, val_main_v4_apply, Fin.sum_univ_one, val_main_v6_apply, val_main_v5_apply,
    val_main_call0_v0_apply, val_main_call0_cst_apply]
  have e1 : lidx_main_v4 (ix2 a k) 0 = ix2 a (0 : Fin 1) := funext fun d => Fin.ext (by match d with | ⟨0, _⟩ => rfl | ⟨1, _⟩ => rfl)
  have e2 : ridx_main_v4 (ix2 a k) 0 = ix2 (0 : Fin 1) k := funext fun d => Fin.ext (by match d with | ⟨0, _⟩ => rfl | ⟨1, _⟩ => rfl)
  have e3 : idx_main_v5 (idx_main_v6 (ix2 a k)) = ix1 k := funext fun d => Fin.ext (by match d with | ⟨0, _⟩ => rfl)
  rw [e1, e2, e3]
  rfl

/-- The edge stage over an arbitrary gathered array, read at edge `a`, channel `c`. -/
theorem edge_stage_at (xs : Arr S800000x96) (x2 : Arr S800000x1) (x3 : Arr S1x96) (x4 : Arr S96) (x5 : Arr S96x96) (x6 : Arr S96)
    (a : Fin 800000) (c : Fin 96) :
    maximumf (addf xs (val_main_v12 (F := Ideal) x2 x3 x4 x5 x6)) (val_main_call1_v0 (F := Ideal)) (ix2 a c)
      = Cert.Gine.edgeMsg x2 xs x3 x4 x5 x6 (ix2 a c) := by
  show _ = max (xs (ix2 a c) + ((∑ k : Fin 96, Cert.Gine.edgeHidden x2 x3 x4 a k * x5 (ix2 k c)) + x6 (ix1 c))) Cert.Gine.zero
  rw [maximumf_apply, addf_apply, val_main_v12_apply, val_main_v9_apply, val_main_v11_apply, val_main_v10_apply,
    val_main_call1_v0_apply, val_main_call1_cst_apply]
  have el : ∀ k : Fin 96, lidx_main_v9 (ix2 a c) k = ix2 a k := fun k => funext fun d => Fin.ext (by match d with | ⟨0, _⟩ => rfl | ⟨1, _⟩ => rfl)
  have er : ∀ k : Fin 96, ridx_main_v9 (ix2 a c) k = ix2 k c := fun k => funext fun d => Fin.ext (by match d with | ⟨0, _⟩ => rfl | ⟨1, _⟩ => rfl)
  have eb : idx_main_v10 (idx_main_v11 (ix2 a c)) = ix1 c := funext fun d => Fin.ext (by match d with | ⟨0, _⟩ => rfl)
  rw [eb]
  simp only [el, er, hidden_at]
  rfl

/-- The edge stage over an arbitrary gathered array is the specification's message. -/
theorem edge_stage (xs : Arr S800000x96) (x2 : Arr S800000x1) (x3 : Arr S1x96) (x4 : Arr S96) (x5 : Arr S96x96) (x6 : Arr S96) :
    maximumf (addf xs (val_main_v12 (F := Ideal) x2 x3 x4 x5 x6)) (val_main_call1_v0 (F := Ideal))
      = Cert.Gine.edgeMsg x2 xs x3 x4 x5 x6 := by
  funext j
  obtain ⟨a, c, rfl⟩ : ∃ (a : Fin 800000) (c : Fin 96), j = ix2 a c := ⟨j 0, j 1, eq_ix2 j⟩
  exact edge_stage_at xs x2 x3 x4 x5 x6 a c

/-! ## The node stage -/

/-- Layer 0's first node linear map with its max, read at node `n`, channel `k`. -/
theorem node0_hidden_at (x0 : Arr S50000x96) (x1 : (⟨S2x800000, .i32⟩ : BufTy).Contents (Elt Ideal)) (x2 : Arr S800000x1) (x3 : Arr S1x96) (x4 : Arr S96) (x5 : Arr S96x96) (x6 : Arr S96) (x7 : Arr S96x96) (x8 : Arr S96) (n : Fin 50000) (k : Fin 96) :
    val_main_v30 (F := Ideal) x0 x1 x2 x3 x4 x5 x6 x7 x8 (ix2 n k)
      = Cert.Gine.nodeHidden (x0) (val_main_v24 (F := Ideal) x0 x1 x2 x3 x4 x5 x6) x7 x8 n k := by
  unfold Cert.Gine.nodeHidden
  rw [val_main_v30_apply, val_main_v29_apply, val_main_v26_apply, val_main_v28_apply, val_main_v27_apply,
    val_main_call2_v0_apply, val_main_call2_cst_apply]
  have el : ∀ l : Fin 96, lidx_main_v26 (ix2 n k) l = ix2 n l := fun l => funext fun d => Fin.ext (by match d with | ⟨0, _⟩ => rfl | ⟨1, _⟩ => rfl)
  have er : ∀ l : Fin 96, ridx_main_v26 (ix2 n k) l = ix2 l k := fun l => funext fun d => Fin.ext (by match d with | ⟨0, _⟩ => rfl | ⟨1, _⟩ => rfl)
  have eb : idx_main_v27 (idx_main_v28 (ix2 n k)) = ix1 k := funext fun d => Fin.ext (by match d with | ⟨0, _⟩ => rfl)
  rw [eb]
  simp only [el, er, val_main_v25_apply]
  rfl

/-- Layer 0's node update read at node `n`, channel `c`. -/
theorem node0_at (x0 : Arr S50000x96) (x1 : (⟨S2x800000, .i32⟩ : BufTy).Contents (Elt Ideal)) (x2 : Arr S800000x1) (x3 : Arr S1x96) (x4 : Arr S96) (x5 : Arr S96x96) (x6 : Arr S96) (x7 : Arr S96x96) (x8 : Arr S96) (x9 : Arr S96x96) (x10 : Arr S96) (n : Fin 50000) (c : Fin 96) :
    val_main_v35 (F := Ideal) x0 x1 x2 x3 x4 x5 x6 x7 x8 x9 x10 (ix2 n c)
      = Cert.Gine.nodeMlp (x0) (val_main_v24 (F := Ideal) x0 x1 x2 x3 x4 x5 x6) x7 x8 x9 x10 (ix2 n c) := by
  show _ = max ((∑ k : Fin 96, Cert.Gine.nodeHidden (x0) (val_main_v24 (F := Ideal) x0 x1 x2 x3 x4 x5 x6) x7 x8 n k * x9 (ix2 k c)) + x10 (ix1 c)) Cert.Gine.zero
  rw [val_main_v35_apply, val_main_v34_apply, val_main_v31_apply, val_main_v33_apply, val_main_v32_apply,
    val_main_call3_v0_apply, val_main_call3_cst_apply]
  have el : ∀ k : Fin 96, lidx_main_v31 (ix2 n c) k = ix2 n k := fun k => funext fun d => Fin.ext (by match d with | ⟨0, _⟩ => rfl | ⟨1, _⟩ => rfl)
  have er : ∀ k : Fin 96, ridx_main_v31 (ix2 n c) k = ix2 k c := fun k => funext fun d => Fin.ext (by match d with | ⟨0, _⟩ => rfl | ⟨1, _⟩ => rfl)
  have eb : idx_main_v32 (idx_main_v33 (ix2 n c)) = ix1 c := funext fun d => Fin.ext (by match d with | ⟨0, _⟩ => rfl)
  rw [eb]
  simp only [el, er, node0_hidden_at]
  rfl

/-- Layer 0's node stage is the specification's node update of its input and its aggregate. -/
theorem node0_stage (x0 : Arr S50000x96) (x1 : (⟨S2x800000, .i32⟩ : BufTy).Contents (Elt Ideal)) (x2 : Arr S800000x1) (x3 : Arr S1x96) (x4 : Arr S96) (x5 : Arr S96x96) (x6 : Arr S96) (x7 : Arr S96x96) (x8 : Arr S96) (x9 : Arr S96x96) (x10 : Arr S96) :
    val_main_v35 (F := Ideal) x0 x1 x2 x3 x4 x5 x6 x7 x8 x9 x10
      = Cert.Gine.nodeMlp (x0) (val_main_v24 (F := Ideal) x0 x1 x2 x3 x4 x5 x6) x7 x8 x9 x10 := by
  funext j
  obtain ⟨n, c, rfl⟩ : ∃ (n : Fin 50000) (c : Fin 96), j = ix2 n c := ⟨j 0, j 1, eq_ix2 j⟩
  exact node0_at x0 x1 x2 x3 x4 x5 x6 x7 x8 x9 x10 n c

/-- Layer 1's first node linear map with its max, read at node `n`, channel `k`. -/
theorem node1_hidden_at (x0 : Arr S50000x96) (x1 : (⟨S2x800000, .i32⟩ : BufTy).Contents (Elt Ideal)) (x2 : Arr S800000x1) (x3 : Arr S1x96) (x4 : Arr S96) (x5 : Arr S96x96) (x6 : Arr S96) (x7 : Arr S96x96) (x8 : Arr S96) (x9 : Arr S96x96) (x10 : Arr S96) (x11 : Arr S96x96) (x12 : Arr S96) (n : Fin 50000) (k : Fin 96) :
    val_main_v54 (F := Ideal) x0 x1 x2 x3 x4 x5 x6 x7 x8 x9 x10 x11 x12 (ix2 n k)
      = Cert.Gine.nodeHidden (val_main_v36 (F := Ideal) x0 x1 x2 x3 x4 x5 x6 x7 x8 x9 x10) (val_main_v48 (F := Ideal) x0 x1 x2 x3 x4 x5 x6 x7 x8 x9 x10) x11 x12 n k := by
  unfold Cert.Gine.nodeHidden
  rw [val_main_v54_apply, val_main_v53_apply, val_main_v50_apply, val_main_v52_apply, val_main_v51_apply,
    val_main_call6_v0_apply, val_main_call6_cst_apply]
  have el : ∀ l : Fin 96, lidx_main_v50 (ix2 n k) l = ix2 n l := fun l => funext fun d => Fin.ext (by match d with | ⟨0, _⟩ => rfl | ⟨1, _⟩ => rfl)
  have er : ∀ l : Fin 96, ridx_main_v50 (ix2 n k) l = ix2 l k := fun l => funext fun d => Fin.ext (by match d with | ⟨0, _⟩ => rfl | ⟨1, _⟩ => rfl)
  have eb : idx_main_v51 (idx_main_v52 (ix2 n k)) = ix1 k := funext fun d => Fin.ext (by match d with | ⟨0, _⟩ => rfl)
  rw [eb]
  simp only [el, er, val_main_v49_apply]
  rfl

/-- Layer 1's node update read at node `n`, channel `c`. -/
theorem node1_at (x0 : Arr S50000x96) (x1 : (⟨S2x800000, .i32⟩ : BufTy).Contents (Elt Ideal)) (x2 : Arr S800000x1) (x3 : Arr S1x96) (x4 : Arr S96) (x5 : Arr S96x96) (x6 : Arr S96) (x7 : Arr S96x96) (x8 : Arr S96) (x9 : Arr S96x96) (x10 : Arr S96) (x11 : Arr S96x96) (x12 : Arr S96) (x13 : Arr S96x96) (x14 : Arr S96) (n : Fin 50000) (c : Fin 96) :
    val_main_v59 (F := Ideal) x0 x1 x2 x3 x4 x5 x6 x7 x8 x9 x10 x11 x12 x13 x14 (ix2 n c)
      = Cert.Gine.nodeMlp (val_main_v36 (F := Ideal) x0 x1 x2 x3 x4 x5 x6 x7 x8 x9 x10) (val_main_v48 (F := Ideal) x0 x1 x2 x3 x4 x5 x6 x7 x8 x9 x10) x11 x12 x13 x14 (ix2 n c) := by
  show _ = max ((∑ k : Fin 96, Cert.Gine.nodeHidden (val_main_v36 (F := Ideal) x0 x1 x2 x3 x4 x5 x6 x7 x8 x9 x10) (val_main_v48 (F := Ideal) x0 x1 x2 x3 x4 x5 x6 x7 x8 x9 x10) x11 x12 n k * x13 (ix2 k c)) + x14 (ix1 c)) Cert.Gine.zero
  rw [val_main_v59_apply, val_main_v58_apply, val_main_v55_apply, val_main_v57_apply, val_main_v56_apply,
    val_main_call7_v0_apply, val_main_call7_cst_apply]
  have el : ∀ k : Fin 96, lidx_main_v55 (ix2 n c) k = ix2 n k := fun k => funext fun d => Fin.ext (by match d with | ⟨0, _⟩ => rfl | ⟨1, _⟩ => rfl)
  have er : ∀ k : Fin 96, ridx_main_v55 (ix2 n c) k = ix2 k c := fun k => funext fun d => Fin.ext (by match d with | ⟨0, _⟩ => rfl | ⟨1, _⟩ => rfl)
  have eb : idx_main_v56 (idx_main_v57 (ix2 n c)) = ix1 c := funext fun d => Fin.ext (by match d with | ⟨0, _⟩ => rfl)
  rw [eb]
  simp only [el, er, node1_hidden_at]
  rfl

/-- Layer 1's node stage is the specification's node update of its input and its aggregate. -/
theorem node1_stage (x0 : Arr S50000x96) (x1 : (⟨S2x800000, .i32⟩ : BufTy).Contents (Elt Ideal)) (x2 : Arr S800000x1) (x3 : Arr S1x96) (x4 : Arr S96) (x5 : Arr S96x96) (x6 : Arr S96) (x7 : Arr S96x96) (x8 : Arr S96) (x9 : Arr S96x96) (x10 : Arr S96) (x11 : Arr S96x96) (x12 : Arr S96) (x13 : Arr S96x96) (x14 : Arr S96) :
    val_main_v59 (F := Ideal) x0 x1 x2 x3 x4 x5 x6 x7 x8 x9 x10 x11 x12 x13 x14
      = Cert.Gine.nodeMlp (val_main_v36 (F := Ideal) x0 x1 x2 x3 x4 x5 x6 x7 x8 x9 x10) (val_main_v48 (F := Ideal) x0 x1 x2 x3 x4 x5 x6 x7 x8 x9 x10) x11 x12 x13 x14 := by
  funext j
  obtain ⟨n, c, rfl⟩ : ∃ (n : Fin 50000) (c : Fin 96), j = ix2 n c := ⟨j 0, j 1, eq_ix2 j⟩
  exact node1_at x0 x1 x2 x3 x4 x5 x6 x7 x8 x9 x10 x11 x12 x13 x14 n c

/-! ## The gather, the scatter-add and the whole network -/

/-- The reference's per-edge gather of node rows, as a function of the node array. -/
def gath (x1 : (⟨S2x800000, .i32⟩ : BufTy).Contents (Elt Ideal)) (x : FVec Ideal S50000x96 .f32) : FVec Ideal S800000x96 .f32 :=
  Host.gather gather_S50000x96_S800000x1_S800000x96_1_0_n_n_0_1_196 x (val_main_v18 (F := Ideal) x1)

/-- The reference's per-node sum of edge rows. -/
def scat (x1 : (⟨S2x800000, .i32⟩ : BufTy).Contents (Elt Ideal)) (u : FVec Ideal S800000x96 .f32) : FVec Ideal S50000x96 .f32 :=
  Host.scatterAdd scatter_S50000x96_S800000x1_S800000x96_1_0_0_1 (val_main_v22 (F := Ideal)) (val_main_v23 (F := Ideal) x1) u

/-- One more max with the broadcast zero is the specification's. -/
theorem relu_eq (y : Arr S50000x96) : maximumf y (val_main_call4_v0 (F := Ideal)) = Cert.Gine.relu y := by
  funext j
  rw [maximumf_apply, val_main_call4_v0_apply, val_main_call4_cst_apply]
  rfl

/-- Layer 0's messages. -/
theorem msg0_eq (x0 : Arr S50000x96) (x1 : (⟨S2x800000, .i32⟩ : BufTy).Contents (Elt Ideal)) (x2 : Arr S800000x1) (x3 : Arr S1x96) (x4 : Arr S96) (x5 : Arr S96x96) (x6 : Arr S96) :
    val_main_v21 (F := Ideal) x0 x1 x2 x3 x4 x5 x6 = Cert.Gine.edgeMsg x2 (gath x1 x0) x3 x4 x5 x6 :=
  edge_stage (gath x1 x0) x2 x3 x4 x5 x6

/-- Layer 0's aggregate. -/
theorem agg0_eq (x0 : Arr S50000x96) (x1 : (⟨S2x800000, .i32⟩ : BufTy).Contents (Elt Ideal)) (x2 : Arr S800000x1) (x3 : Arr S1x96) (x4 : Arr S96) (x5 : Arr S96x96) (x6 : Arr S96) :
    val_main_v24 (F := Ideal) x0 x1 x2 x3 x4 x5 x6 = scat x1 (val_main_v21 (F := Ideal) x0 x1 x2 x3 x4 x5 x6) := rfl

/-- The second layer's input. -/
theorem mid_eq (x0 : Arr S50000x96) (x1 : (⟨S2x800000, .i32⟩ : BufTy).Contents (Elt Ideal)) (x2 : Arr S800000x1) (x3 : Arr S1x96) (x4 : Arr S96) (x5 : Arr S96x96) (x6 : Arr S96) (x7 : Arr S96x96) (x8 : Arr S96) (x9 : Arr S96x96) (x10 : Arr S96) :
    val_main_v36 (F := Ideal) x0 x1 x2 x3 x4 x5 x6 x7 x8 x9 x10 = Cert.Gine.relu (val_main_v35 (F := Ideal) x0 x1 x2 x3 x4 x5 x6 x7 x8 x9 x10) :=
  relu_eq (val_main_v35 (F := Ideal) x0 x1 x2 x3 x4 x5 x6 x7 x8 x9 x10)

/-- The second layer gathers with the same edge sources as the first. -/
theorem src_eq (x1 : (⟨S2x800000, .i32⟩ : BufTy).Contents (Elt Ideal)) : val_main_v42 (F := Ideal) x1 = val_main_v18 (F := Ideal) x1 := rfl

/-- Layer 1's messages. -/
theorem msg1_eq (x0 : Arr S50000x96) (x1 : (⟨S2x800000, .i32⟩ : BufTy).Contents (Elt Ideal)) (x2 : Arr S800000x1) (x3 : Arr S1x96) (x4 : Arr S96) (x5 : Arr S96x96) (x6 : Arr S96) (x7 : Arr S96x96) (x8 : Arr S96) (x9 : Arr S96x96) (x10 : Arr S96) :
    val_main_v45 (F := Ideal) x0 x1 x2 x3 x4 x5 x6 x7 x8 x9 x10 = Cert.Gine.edgeMsg x2 (gath x1 (val_main_v36 (F := Ideal) x0 x1 x2 x3 x4 x5 x6 x7 x8 x9 x10)) x3 x4 x5 x6 :=
  edge_stage (gath x1 (val_main_v36 (F := Ideal) x0 x1 x2 x3 x4 x5 x6 x7 x8 x9 x10)) x2 x3 x4 x5 x6

/-- Layer 1's aggregate. -/
theorem agg1_eq (x0 : Arr S50000x96) (x1 : (⟨S2x800000, .i32⟩ : BufTy).Contents (Elt Ideal)) (x2 : Arr S800000x1) (x3 : Arr S1x96) (x4 : Arr S96) (x5 : Arr S96x96) (x6 : Arr S96) (x7 : Arr S96x96) (x8 : Arr S96) (x9 : Arr S96x96) (x10 : Arr S96) :
    val_main_v48 (F := Ideal) x0 x1 x2 x3 x4 x5 x6 x7 x8 x9 x10 = scat x1 (val_main_v45 (F := Ideal) x0 x1 x2 x3 x4 x5 x6 x7 x8 x9 x10) := rfl

/-- The reference program's result is the two-layer network over its own gather and scatter-add. -/
theorem ref_net (x0 : (⟨S50000x96, .f32⟩ : BufTy).Contents (Elt Ideal)) (x1 : (⟨S2x800000, .i32⟩ : BufTy).Contents (Elt Ideal))
    (x2 : (⟨S800000x1, .f32⟩ : BufTy).Contents (Elt Ideal)) (x3 : (⟨S1x96, .f32⟩ : BufTy).Contents (Elt Ideal)) (x4 : (⟨S96, .f32⟩ : BufTy).Contents (Elt Ideal))
    (x5 : (⟨S96x96, .f32⟩ : BufTy).Contents (Elt Ideal)) (x6 : (⟨S96, .f32⟩ : BufTy).Contents (Elt Ideal))
    (x7 : (⟨S96x96, .f32⟩ : BufTy).Contents (Elt Ideal)) (x8 : (⟨S96, .f32⟩ : BufTy).Contents (Elt Ideal)) (x9 : (⟨S96x96, .f32⟩ : BufTy).Contents (Elt Ideal)) (x10 : (⟨S96, .f32⟩ : BufTy).Contents (Elt Ideal))
    (x11 : (⟨S96x96, .f32⟩ : BufTy).Contents (Elt Ideal)) (x12 : (⟨S96, .f32⟩ : BufTy).Contents (Elt Ideal)) (x13 : (⟨S96x96, .f32⟩ : BufTy).Contents (Elt Ideal)) (x14 : (⟨S96, .f32⟩ : BufTy).Contents (Elt Ideal)) :
    val_main_v60 (F := Ideal) x0 x1 x2 x3 x4 x5 x6 x7 x8 x9 x10 x11 x12 x13 x14
      = Cert.Gine.net (gath x1) (scat x1) x0 x2 x3 x4 x5 x6 x7 x8 x9 x10 x11 x12 x13 x14 := by
  have h60 : val_main_v60 (F := Ideal) x0 x1 x2 x3 x4 x5 x6 x7 x8 x9 x10 x11 x12 x13 x14 = Cert.Gine.relu (val_main_v59 (F := Ideal) x0 x1 x2 x3 x4 x5 x6 x7 x8 x9 x10 x11 x12 x13 x14) :=
    relu_eq (val_main_v59 (F := Ideal) x0 x1 x2 x3 x4 x5 x6 x7 x8 x9 x10 x11 x12 x13 x14)
  rw [h60, node1_stage, agg1_eq, msg1_eq, mid_eq, node0_stage, agg0_eq, msg0_eq]
  rfl

end Cert.RefNet

end
-- ==== Proof.Bridge.lean ====
/-
  The kernel program and the reference program contain the same host gather and the same host scatter-add, each
  written over its own copy of the shape names, of the dimension records and of the side conditions. The copies carry the same
  literals, so the two spellings denote the same functions:

  * the edge sources are row 0 of the edge-index array, a negative one moved up by the node count, as a column;
  * the edge targets are row 1 of the edge-index array, as a column;
  * the gather reads, for each edge, the row of the node array its source names;
  * the scatter-add sums, into an all-zero node array, each edge row at the node its target names.

  The two dimension records agree field by field (their side conditions are propositions), and the index arrays are
  the same compositions of the same operations; neither the gather nor the scatter-add is opened.
-/
import proofs.«105474_j29618094473563_1_alg».proof.KernelIdeal
import proofs.«105474_j29618094473563_1_alg».proof.Proof.Gen.KernelIdeal
import proofs.«105474_j29618094473563_1_alg».proof.Proof.RefNet
import proofs.«105474_j29618094473563_1_alg».proof.Proof.Spec

noncomputable section

namespace Cert.Bridge

open Idealize.ShloMosaic Idealize.ShloMosaic.ValueIdx

/-- The kernel program's edge sources: row 0 of the edge-index array. -/
def srcK (ei : (⟨Cert.KernelIdeal.S2x800000, .i32⟩ : BufTy).Contents (Elt Ideal)) : (⟨Cert.KernelIdeal.S800000, .i32⟩ : BufTy).Contents (Elt Ideal) :=
  shapeCast _ (extractStridedSlice Cert.KernelIdeal.S1x800000 ![0, 0] ei Cert.KernelIdeal.Facts₀.slices_S2x800000_S1x800000_0_0)
    Cert.KernelIdeal.Facts₀.shapeCasts_S1x800000_S800000

/-- The kernel program's edge targets: row 1 of the edge-index array. -/
def dstK (ei : (⟨Cert.KernelIdeal.S2x800000, .i32⟩ : BufTy).Contents (Elt Ideal)) : (⟨Cert.KernelIdeal.S800000, .i32⟩ : BufTy).Contents (Elt Ideal) :=
  shapeCast _ (extractStridedSlice Cert.KernelIdeal.S1x800000 ![1, 0] ei Cert.KernelIdeal.Facts₀.slices_S2x800000_S1x800000_1_0)
    Cert.KernelIdeal.Facts₀.shapeCasts_S1x800000_S800000

/-- The kernel program's per-edge gather of node rows, as a function of the node array. -/
def gathK (ei : (⟨Cert.KernelIdeal.S2x800000, .i32⟩ : BufTy).Contents (Elt Ideal)) (x : FVec Ideal Cert.KernelIdeal.S50000x96 .f32) : FVec Ideal Cert.KernelIdeal.S800000x96 .f32 :=
  Host.gather Cert.KernelIdeal.gather_S50000x96_S800000x1_S800000x96_1_0_n_n_0_1_196 x
    (broadcastInDim Cert.KernelIdeal.S800000x1 ![0] Cert.KernelIdeal.Facts₀.bcast_S800000_S800000x1_0
      (select
        (cmpi .slt (srcK ei) (broadcastInDim Cert.KernelIdeal.S800000 ![] Cert.KernelIdeal.Facts₀.bcast_S_S800000 (constantI Cert.KernelIdeal.S_ 32 0#32)))
        (addi (srcK ei) (broadcastInDim Cert.KernelIdeal.S800000 ![] Cert.KernelIdeal.Facts₀.bcast_S_S800000 (constantI Cert.KernelIdeal.S_ 32 50000#32)))
        (srcK ei)))

/-- The kernel program's per-node sum of edge rows. -/
def scatK (ei : (⟨Cert.KernelIdeal.S2x800000, .i32⟩ : BufTy).Contents (Elt Ideal)) (u : FVec Ideal Cert.KernelIdeal.S800000x96 .f32) : FVec Ideal Cert.KernelIdeal.S50000x96 .f32 :=
  Host.scatterAdd Cert.KernelIdeal.scatter_S50000x96_S800000x1_S800000x96_1_0_0_1
    (broadcastInDim Cert.KernelIdeal.S50000x96 ![] Cert.KernelIdeal.Facts₀.bcast_S_S50000x96 (constant (F := Ideal) Cert.KernelIdeal.S_ .f32 0x00000000#32))
    (broadcastInDim Cert.KernelIdeal.S800000x1 ![0] Cert.KernelIdeal.Facts₀.bcast_S800000_S800000x1_0 (dstK ei)) u

/-- The two gather records carry the same fields. -/
theorem gather_rec_eq : Cert.KernelIdeal.gather_S50000x96_S800000x1_S800000x96_1_0_n_n_0_1_196 = Cert.ReferenceIdeal.gather_S50000x96_S800000x1_S800000x96_1_0_n_n_0_1_196 := rfl

/-- The two scatter records carry the same fields. -/
theorem scatter_rec_eq : Cert.KernelIdeal.scatter_S50000x96_S800000x1_S800000x96_1_0_0_1 = Cert.ReferenceIdeal.scatter_S50000x96_S800000x1_S800000x96_1_0_0_1 := rfl

/-- The kernel program's edge sources are the reference's. -/
theorem src_eq (ei : (⟨Cert.KernelIdeal.S2x800000, .i32⟩ : BufTy).Contents (Elt Ideal)) : srcK ei = Cert.ReferenceIdeal.Read.val_main_v1 (F := Ideal) ei := rfl

/-- The kernel program's edge targets are the reference's. -/
theorem dst_eq (ei : (⟨Cert.KernelIdeal.S2x800000, .i32⟩ : BufTy).Contents (Elt Ideal)) : dstK ei = Cert.ReferenceIdeal.Read.val_main_v3 (F := Ideal) ei := rfl

/-- The kernel program's gather is the reference's. -/
theorem gath_eq (ei : (⟨Cert.KernelIdeal.S2x800000, .i32⟩ : BufTy).Contents (Elt Ideal)) : gathK ei = Cert.RefNet.gath ei := by
  funext x
  unfold gathK Cert.RefNet.gath
  rw [gather_rec_eq]
  refine congrArg (Host.gather _ x) ?_
  rw [src_eq]
  rfl

/-- The kernel program's scatter-add is the reference's. -/
theorem scat_eq (ei : (⟨Cert.KernelIdeal.S2x800000, .i32⟩ : BufTy).Contents (Elt Ideal)) : scatK ei = Cert.RefNet.scat ei := by
  funext u
  unfold scatK Cert.RefNet.scat
  rw [scatter_rec_eq, dst_eq]
  rfl

end Cert.Bridge

end
-- ==== Proof.KernelRun.lean ====
/-
  The kernel program's run with its result named: from any launch memory with zero counters, every weakly fair
  execution of @main on the TensorCores terminates without fault, and in every final state the result buffer holds
  the last boundary's contents (the fold of the buffer contents through @main's host stretches and regions, read at
  the result buffer) while every argument array is as launched.
-/
import proofs.«105474_j29618094473563_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- The run of @main with its result named: termination without fault, the result buffer at the last boundary's
    contents, and every argument array as launched. -/
theorem run_value : θ_run defs (onTc (τ := τ) (main (F := F))) ⟨m, fun _ => 0, ρ⟩ (fun r => ∀ c : Dev nD,
      r.2.mem ((c.tc : Thread nD τ).loc main_v35) = Gen.W10 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v35 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)

end Cert.KernelIdeal.RunValue

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibVecIx2.lean ====
/-
  Vector layout operations of a kernel body read at a rank-2 index built from its two coordinates: a block of a
  matrix (one column, one row, one entry), a column or a row broadcast over a matrix, an entry extracted as a scalar,
  a sum over the rows of a matrix, and a one-row matrix made from a vector. Each is stated in closed form (no side
  condition), so that a rewriting pass can push an index through a long chain of such operations.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.VecIx2

open Idealize.ShloMosaic Idealize.ShloMosaic.ValueIdx

variable {α : Type}

theorem slices_lt0 {a b m n o0 o1 : ℕ} (h : (⟨2, ![a, b]⟩ : Shape).Slices ![o0, o1] ⟨2, ![m, n]⟩) (hm : 0 < m) : o0 < a := by
  obtain ⟨_, h2⟩ := h
  have := h2 (0 : Fin 2)
  have e : (![o0, o1] : Fin 2 → ℕ) 0 + m ≤ a := this
  have e' : o0 + m ≤ a := e
  omega

theorem slices_lt1 {a b m n o0 o1 : ℕ} (h : (⟨2, ![a, b]⟩ : Shape).Slices ![o0, o1] ⟨2, ![m, n]⟩) (hn : 0 < n) : o1 < b := by
  obtain ⟨_, h2⟩ := h
  have := h2 (1 : Fin 2)
  have e : (![o0, o1] : Fin 2 → ℕ) 1 + n ≤ b := this
  have e' : o1 + n ≤ b := e
  omega

/-- Column `o` of a matrix, as an [a, 1] block: entry (p, ·) is the matrix at (p, o). -/
theorem slice_col {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, slices_lt1 h Nat.one_pos⟩) :=
  extractStridedSlice_apply _ _ _ _ _ (fun ax => by
    match ax with
    | ⟨0, _⟩ => exact (Nat.zero_add _).symm
    | ⟨1, _⟩ => show o = o + u.val; omega)

/-- Row `o` of a matrix, as a [1, b] block: entry (·, q) is the matrix at (o, q). -/
theorem slice_row {a b : ℕ} (o : ℕ) (X : (⟨2, ![a, b]⟩ : Shape).Idx → α)
    (h : (⟨2, ![a, b]⟩ : Shape).Slices ![o, 0] ⟨2, ![1, b]⟩) (u : Fin 1) (q : Fin b) :
    extractStridedSlice ⟨2, ![1, b]⟩ ![o, 0] X h (ix2 u q) = X (ix2 ⟨o, slices_lt0 h Nat.one_pos⟩ q) :=
  extractStridedSlice_apply _ _ _ _ _ (fun ax => by
    match ax with
    | ⟨0, _⟩ => show o = o + u.val; omega
    | ⟨1, _⟩ => exact (Nat.zero_add _).symm)

/-- Entry (o0, o1) of a matrix, as a [1, 1] block. -/
theorem slice_11 {a b : ℕ} (o0 o1 : ℕ) (X : (⟨2, ![a, b]⟩ : Shape).Idx → α)
    (h : (⟨2, ![a, b]⟩ : Shape).Slices ![o0, o1] ⟨2, ![1, 1]⟩) (u v : Fin 1) :
    extractStridedSlice ⟨2, ![1, 1]⟩ ![o0, o1] X h (ix2 u v)
      = X (ix2 ⟨o0, slices_lt0 h Nat.one_pos⟩ ⟨o1, slices_lt1 h Nat.one_pos⟩) :=
  extractStridedSlice_apply _ _ _ _ _ (fun ax => by
    match ax with
    | ⟨0, _⟩ => show o0 = o0 + u.val; omega
    | ⟨1, _⟩ => show o1 = o1 + v.val; omega)

/-- The one entry of a [1, 1] matrix extracted as a scalar. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- An [a, 1] column broadcast over [a, b]: entry (p, q) is the column at p. -/
theorem bcast_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum over the rows of an [a, b] matrix of extended reals, from a zero accumulator: entry q is the column's sum. -/
theorem reduce_rows {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum, with the accumulator's neutrality stated on the words themselves (as a printed program states it). -/
theorem reduce_rows' {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  reduce_rows src h hφ hacc q

end Cert.Lib.VecIx2

end
-- ==== Proof.EdgeBody.lean ====
/-
  The edge stage's body at one grid point, read at an entry of its block: from the point's blocks of the edge
  attribute column, the gathered node rows, the two weight matrices and the two bias rows, the value stored at
  (p, q) is max (xs (p, q) + ((∑ k, max (a (p, 0) · wl0 (0, k) + bl0 (0, k)) 0 · wl1 (k, q)) + bl1 (0, q))) 0.
  The change of float format before the matrix product is the identity on the extended reals, and the product into
  the zero accumulator is the plain sum over the contracted coordinate.
-/
import proofs.«105474_j29618094473563_1_alg».proof.Proof.Gen.KernelIdeal.Skeleton
import proofs.«105474_j29618094473563_1_alg».proof.Proof.Spec
import proofs.«105474_j29618094473563_1_alg».proof.Proof.LibPlainDot
import proofs.«105474_j29618094473563_1_alg».proof.Proof.LibVecIx2
import Idealize.ShloMosaic.Lib.ValueLayout
import Idealize.ShloMosaic.Lib.Pipeline.Value

noncomputable section

namespace Cert.KernelIdeal.EdgeBody

open Cert.KernelIdeal Cert.KernelIdeal.Gen Idealize.ShloMosaic Idealize.ShloMosaic.ValueIdx

/-- The value the edge body stores at (p, q) of its block. -/
def edgeBlock (a : FVec Ideal S4000x1 .f32) (xs : FVec Ideal S4000x96 .f32) (wl0 bl0 : FVec Ideal S1x96 .f32)
    (wl1 : FVec Ideal S96x96 .f32) (bl1 : FVec Ideal S1x96 .f32) (p : Fin 4000) (q : Fin 96) : Ideal .f32 :=
  max (xs (ix2 p q)
    + ((∑ k : Fin 96, max (a (ix2 p (0 : Fin 1)) * wl0 (ix2 (0 : Fin 1) k) + bl0 (ix2 (0 : Fin 1) k)) Cert.Gine.zero
          * wl1 (ix2 k q)) + bl1 (ix2 (0 : Fin 1) q))) Cert.Gine.zero

theorem dot_plain : dot_S4000x96_S96x96_S4000x96_1_0_0_1_n_n = DotDims.plain 4000 96 96 := rfl

/-- The hidden embedding's entry (p, k) as the body computes it. -/
theorem hidden_apply (v0 : FVec Ideal S4000x1 .f32) (v1 v2 : FVec Ideal S1x96 .f32) (p : Fin 4000) (k : Fin 96) :
    (truncf .bf16 (maximumf (addf (mulf (broadcastTo S4000x96 v0 broadcasts_S4000x1_S4000x96)
        (broadcastTo S4000x96 v1 broadcasts_S1x96_S4000x96))
        (broadcastTo S4000x96 v2 broadcasts_S1x96_S4000x96))
        (broadcast S4000x96 (Scalar.ofBits (F := Ideal) .f32 0x00000000#32))) bitsLt_bf16_f32 : FVec Ideal S4000x96 .bf16) (ix2 p k)
      = max (v0 (ix2 p (0 : Fin 1)) * v1 (ix2 (0 : Fin 1) k) + v2 (ix2 (0 : Fin 1) k)) Cert.Gine.zero := by
  rw [truncf_apply, maximumf_apply, addf_apply, mulf_apply, broadcast_apply,
    Cert.Lib.VecIx2.bcast_col, broadcastTo_1b_ab_apply, broadcastTo_1b_ab_apply]
  rfl

/-- The edge body's one stored value, at an entry. -/
theorem pay_apply (v0 : FVec Ideal S4000x1 .f32) (v1 v2 : FVec Ideal S1x96 .f32) (v11 : FVec Ideal S96x96 .f32)
    (v15 : FVec Ideal S1x96 .f32) (v19 : FVec Ideal S4000x96 .f32) (p : Fin 4000) (q : Fin 96) :
    k0_pay1 (F := Ideal) v0 v1 v2 v11 v15 v19 (ix2 p q) = edgeBlock v0 v19 v1 v2 v11 v15 p q := by
  unfold k0_pay1 edgeBlock
  simp only [shapeCast_self]
  rw [maximumf_apply, addf_apply, addf_apply, broadcast_apply,
    broadcastTo_1b_ab_apply, dot_plain, Cert.PlainDot.matmul_zero_plain_apply]
  refine congrArg₂ max (congrArg₂ (· + ·) rfl (congrArg₂ (· + ·) (Finset.sum_congr rfl fun k _ => ?_) rfl)) rfl
  rw [hidden_apply, truncf_apply]

/-- The second edge region's body is the same text: its stored value at an entry is the same formula. -/
theorem pay2_apply (v0 : FVec Ideal S4000x1 .f32) (v1 v2 : FVec Ideal S1x96 .f32) (v11 : FVec Ideal S96x96 .f32)
    (v15 : FVec Ideal S1x96 .f32) (v19 : FVec Ideal S4000x96 .f32) (p : Fin 4000) (q : Fin 96) :
    k2_pay1 (F := Ideal) v0 v1 v2 v11 v15 v19 (ix2 p q) = edgeBlock v0 v19 v1 v2 v11 v15 p q :=
  pay_apply v0 v1 v2 v11 v15 v19 p q

/-- Block T of the edge stage: when the attribute block and the gathered-rows block are rows T·4000 … T·4000+3999 of
    their arrays, the body's value at (p, q) is the whole-array message at row T·4000 + p, column q. -/
theorem block_eq (attr : FVec Ideal Cert.Gine.SEx1 .f32) (xs : FVec Ideal Cert.Gine.SExC .f32)
    (wl0 bl0r : FVec Ideal Cert.Gine.S1xC .f32) (wl1 : FVec Ideal Cert.Gine.SCxC .f32) (bl1r : FVec Ideal Cert.Gine.S1xC .f32)
    (x0 : FVec Ideal S4000x1 .f32) (x1 : FVec Ideal S4000x96 .f32) (T : ℕ) (hT : T < 200)
    (h0 : ∀ p : Fin 4000, x0 (ix2 p (0 : Fin 1)) = attr (ix2 (⟨T * 4000 + p.val, by omega⟩ : Fin 800000) (0 : Fin 1)))
    (h1 : ∀ (p : Fin 4000) (q : Fin 96), x1 (ix2 p q) = xs (ix2 (⟨T * 4000 + p.val, by omega⟩ : Fin 800000) q))
    (p : Fin 4000) (q : Fin 96) :
    edgeBlock x0 x1 wl0 bl0r wl1 bl1r p q
      = Cert.Gine.edgeMsg attr xs wl0 (Cert.Gine.rowVec bl0r) wl1 (Cert.Gine.rowVec bl1r)
          (ix2 (⟨T * 4000 + p.val, by omega⟩ : Fin 800000) q) := by
  unfold edgeBlock Cert.Gine.edgeMsg Cert.Gine.edgeHidden Cert.Gine.rowVec
  rw [h0, h1]

end Cert.KernelIdeal.EdgeBody

end
-- ==== Proof.Region0.lean ====
/-
  Edge region of the first layer: after its 200 grid points the output array holds the edge stage's message
  array of the arrays the region found. Point t reads rows t·4000 … t·4000+3999 of the attribute column and of the
  gathered node rows, the weights and bias rows whole, and writes back the same rows of the output; the 200 row
  blocks tile the 800000 rows, so every entry of the output is written by the point t = row / 4000.
-/
import proofs.«105474_j29618094473563_1_alg».proof.Proof.Gen.KernelIdeal.Frame
import proofs.«105474_j29618094473563_1_alg».proof.Proof.Spec
import proofs.«105474_j29618094473563_1_alg».proof.Proof.EdgeBody
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked windows sit at block row t, column block 0; the four
    whole-array windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 200 := by
  have h : t.val < grid0.N := t.isLt
  rw [N_0] at h; exact h

/-- A whole-array window's block is its array. -/
theorem whole2 (c : Dev nD) (t : Fin cfg0.N) : iblk0 V c 2 t = V c main_arg3 := by
  obtain ⟨-, -, -, -, e0, e1, -⟩ := idx_facts t
  funext y
  show V c main_arg3 (((cfg0.win 2).blk t).view.emb y) = V c main_arg3 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 96 + 1 * (y 1).val = (y 1).val; omega
theorem whole3 (c : Dev nD) (t : Fin cfg0.N) : iblk0 V c 3 t = V c main_v4 := by
  obtain ⟨-, -, -, -, -, -, e0, e1, -⟩ := idx_facts t
  funext y
  show V c main_v4 (((cfg0.win 3).blk t).view.emb y) = V c main_v4 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 96 + 1 * (y 1).val = (y 1).val; omega
theorem whole4 (c : Dev nD) (t : Fin cfg0.N) : iblk0 V c 4 t = V c main_arg5 := by
  obtain ⟨-, -, -, -, -, -, -, -, e0, e1, -⟩ := idx_facts t
  funext y
  show V c main_arg5 (((cfg0.win 4).blk t).view.emb y) = V c main_arg5 y
  refine congrArg _ (funext fun a => Fin.ext ?_)
  match a with
  | ⟨0, _⟩ => show win0_4.index t (0 : Fin 2) * 96 + 1 * (y 0).val = (y 0).val; omega
  | ⟨1, _⟩ => show win0_4.index t (1 : Fin 2) * 96 + 1 * (y 1).val = (y 1).val; omega
theorem whole5 (c : Dev nD) (t : Fin cfg0.N) : iblk0 V c 5 t = V c main_v5 := by
  obtain ⟨-, -, -, -, -, -, -, -, -, -, e0, e1, -⟩ := idx_facts t
  funext y
  show V c main_v5 (((cfg0.win 5).blk t).view.emb y) = V c main_v5 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 96 + 1 * (y 1).val = (y 1).val; omega

/-- Point t's attribute block is rows t·4000 … of the attribute column. -/
theorem rows0 (c : Dev nD) (t : Fin cfg0.N) (p : Fin 4000) :
    iblk0 V c 0 t (ix2 p (0 : Fin 1))
      = V c main_arg2 (ix2 (⟨t.val * 4000 + p.val, by have := t_lt t; omega⟩ : Fin 800000) (0 : Fin 1)) := by
  obtain ⟨e0, e1, -⟩ := idx_facts t
  show V c main_arg2 (((cfg0.win 0).blk t).view.emb (ix2 p (0 : Fin 1))) = _
  refine congrArg _ (funext fun a => Fin.ext ?_)
  match a with
  | ⟨0, _⟩ => show win0_0.index t (0 : Fin 2) * 4000 + 1 * p.val = t.val * 4000 + p.val; omega
  | ⟨1, _⟩ => show win0_0.index t (1 : Fin 2) * 1 + 1 * 0 = 0; omega

/-- Point t's block of gathered node rows is rows t·4000 … of that array. -/
theorem rows1 (c : Dev nD) (t : Fin cfg0.N) (p : Fin 4000) (q : Fin 96) :
    iblk0 V c 1 t (ix2 p q)
      = V c main_v16 (ix2 (⟨t.val * 4000 + p.val, by have := t_lt t; omega⟩ : Fin 800000) q) := by
  obtain ⟨-, -, e0, e1, -⟩ := idx_facts t
  show V c main_v16 (((cfg0.win 1).blk t).view.emb (ix2 p q)) = _
  refine congrArg _ (funext fun a => Fin.ext ?_)
  match a with
  | ⟨0, _⟩ => show win0_1.index t (0 : Fin 2) * 4000 + 1 * p.val = t.val * 4000 + p.val; omega
  | ⟨1, _⟩ => show win0_1.index t (1 : Fin 2) * 96 + 1 * q.val = q.val; omega

/-- What point t writes back is block t of the message array of the arrays the region found. -/
theorem flushed_eq (c : Dev nD) (t : Fin cfg0.N) :
    (dat0 (F := Ideal) V c).flushed 6 t = ((cfg0.win 6).blk t).view.read (Elt Ideal)
      (Cert.Gine.edgeMsg (V c main_arg2) (V c main_v16) (V c main_arg3) (Cert.Gine.rowVec (V c main_v4))
        (V c main_arg5) (Cert.Gine.rowVec (V c main_v5))) := by
  show (cfg0.win 6).cut (grid0.coords t) ((dat0 (F := Ideal) V c).after 6 t) = _
  rw [after0_6]
  unfold out0_6
  rw [View.canon_unit_zero hz]
  simp only [View.ld_unit_zero (S := S4000x1) hz, View.ld_unit_zero (S := S1x96) hz, View.ld_unit_zero (S := S96x96) hz,
    View.ld_unit_zero (S := S4000x96) hz]
  rw [whole2 V c t, whole3 V c t, whole4 V c t, whole5 V c t]
  obtain ⟨-, -, -, -, -, -, -, -, -, -, -, -, e0, e1⟩ := idx_facts t
  funext j
  have hemb : ((cfg0.win 6).blk t).view.emb j
      = ix2 (⟨t.val * 4000 + (j 0).val, by have := t_lt t; have h4 : (j 0).val < 4000 := (j 0).isLt; show _ < 800000; omega⟩ : Fin 800000) (j 1) := by
    funext a; apply Fin.ext
    match a with
    | ⟨0, _⟩ => show win0_6.index t (0 : Fin 2) * 4000 + 1 * (j 0).val = t.val * 4000 + (j 0).val; omega
    | ⟨1, _⟩ => show win0_6.index t (1 : Fin 2) * 96 + 1 * (j 1).val = (j 1).val; omega
  refine Eq.trans (congrArg (k0_pay1 (F := Ideal) (iblk0 V c 0 t) (V c main_arg3) (V c main_v4) (V c main_arg5) (V c main_v5) (iblk0 V c 1 t)) (eq_ix2 j)) ?_
  refine Eq.trans (Cert.KernelIdeal.EdgeBody.pay_apply (iblk0 V c 0 t) (V c main_arg3) (V c main_v4) (V c main_arg5) (V c main_v5) (iblk0 V c 1 t) (j 0) (j 1)) ?_
  refine Eq.trans (Cert.KernelIdeal.EdgeBody.block_eq (V c main_arg2) (V c main_v16) (V c main_arg3) (V c main_v4) (V c main_arg5) (V c main_v5)
    (iblk0 V c 0 t) (iblk0 V c 1 t) t.val (t_lt t) (rows0 V c t) (rows1 V c t) (j 0) (j 1)) ?_
  exact congrArg _ hemb.symm

/-- An entry of the output array is in point t's block iff each coordinate is in the block's range. -/
theorem mem_blk (t : Fin cfg0.N) (i : S800000x96.Idx) :
    i ∈ ((cfg0.win 6).blk t).view.set ↔ ∀ a : Fin 2, win0_6.index t a * S4000x96.size a ≤ (i a).val
      ∧ (i a).val < win0_6.index t a * S4000x96.size a + S4000x96.size a := by
  show i ∈ ((View.whole main_v17).slice (win0_6.rect t)).set ↔ _
  rw [View.set_slice_whole, Rect.mem_set_unit]
  exact Iff.rfl

/-- Every entry of the output array is in the block of the point t = row / 4000. -/
theorem cover (i : S800000x96.Idx) :
    ∃ t : Fin cfg0.N, (cfg0.win 6).flush t = true ∧ i ∈ ((cfg0.win 6).blk t).view.set := by
  have hi0 : (i 0).val < 800000 := (i 0).isLt
  have hi1 : (i 1).val < 96 := (i 1).isLt
  obtain ⟨t, ht⟩ : ∃ t : Fin cfg0.N, t.val = (i 0).val / 4000 :=
    ⟨⟨(i 0).val / 4000, by show (i 0).val / 4000 < grid0.N; rw [N_0]; omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 96 ≤ (i 1).val ∧ (i 1).val < win0_6.index t (1 : Fin 2) * 96 + 96
    omega

/-- The output array after the region: the edge stage's messages of the arrays the region found. -/
theorem final (c : Dev nD) :
    (dat0 (F := Ideal) V c).arrAt 6 cfg0.N
      = Cert.Gine.edgeMsg (V c main_arg2) (V c main_v16) (V c main_arg3) (Cert.Gine.rowVec (V c main_v4)) (V c main_arg5) (Cert.Gine.rowVec (V c main_v5)) :=
  (dat0 (F := Ideal) V c).arrAt_eq_of_cover 6 _ (fun t _ => flushed_eq V c t) cover

end Cert.KernelIdeal.Region0

end
-- ==== Proof.NodeBody.lean ====
/-
  The node stage's body at one grid point, read at an entry of its block: from the point's blocks of the node
  features and of the summed messages, the two weight matrices and the two bias rows, the value stored at (p, q) is
  max ((∑ k, max ((∑ l, (x (p, l) + agg (p, l)) · w1 (l, k)) + b1 (0, k)) 0 · w2 (k, q)) + b2 (0, q)) 0.
  The changes of float format before the matrix products are the identity on the extended reals, and each product
  into the zero accumulator is the plain sum over the contracted coordinate.
-/
import proofs.«105474_j29618094473563_1_alg».proof.Proof.Gen.KernelIdeal.Skeleton
import proofs.«105474_j29618094473563_1_alg».proof.Proof.Spec
import proofs.«105474_j29618094473563_1_alg».proof.Proof.LibPlainDot
import Idealize.ShloMosaic.Lib.ValueLayout
import Idealize.ShloMosaic.Lib.Pipeline.Value

noncomputable section

namespace Cert.KernelIdeal.NodeBody

open Cert.KernelIdeal Cert.KernelIdeal.Gen Idealize.ShloMosaic Idealize.ShloMosaic.ValueIdx

/-- The value the node body stores at (p, q) of its block. -/
def nodeBlock (x agg : FVec Ideal S5000x96 .f32) (w1 : FVec Ideal S96x96 .f32) (b1 : FVec Ideal S1x96 .f32)
    (w2 : FVec Ideal S96x96 .f32) (b2 : FVec Ideal S1x96 .f32) (p : Fin 5000) (q : Fin 96) : Ideal .f32 :=
  max ((∑ k : Fin 96, max ((∑ l : Fin 96, (x (ix2 p l) + agg (ix2 p l)) * w1 (ix2 l k)) + b1 (ix2 (0 : Fin 1) k)) Cert.Gine.zero
        * w2 (ix2 k q)) + b2 (ix2 (0 : Fin 1) q)) Cert.Gine.zero

theorem dot_plain : dot_S5000x96_S96x96_S5000x96_1_0_0_1_n_n = DotDims.plain 5000 96 96 := rfl

/-- The hidden layer's entry (p, k) as the body computes it. -/
theorem hidden_apply (v0 v1 : FVec Ideal S5000x96 .f32) (v5 : FVec Ideal S96x96 .f32) (v8 : FVec Ideal S1x96 .f32)
    (p : Fin 5000) (k : Fin 96) :
    (truncf .bf16 (maximumf (addf (matmul (DotDims.plain 5000 96 96) none (truncf .bf16 (addf v0 v1) bitsLt_bf16_f32)
        (truncf .bf16 v5 bitsLt_bf16_f32) (constant (F := Ideal) S5000x96 .f32 0x00000000#32))
        (broadcastTo S5000x96 v8 broadcasts_S1x96_S5000x96))
        (broadcast S5000x96 (Scalar.ofBits (F := Ideal) .f32 0x00000000#32))) bitsLt_bf16_f32 : FVec Ideal S5000x96 .bf16) (ix2 p k)
      = max ((∑ l : Fin 96, (v0 (ix2 p l) + v1 (ix2 p l)) * v5 (ix2 l k)) + v8 (ix2 (0 : Fin 1) k)) Cert.Gine.zero := by
  rw [truncf_apply, maximumf_apply, addf_apply, broadcast_apply, broadcastTo_1b_ab_apply,
    Cert.PlainDot.matmul_zero_plain_apply]
  refine congrArg₂ max (congrArg₂ (· + ·) (Finset.sum_congr rfl fun l _ => ?_) rfl) rfl
  rw [truncf_apply, truncf_apply, addf_apply]

/-- The node body's one stored value, at an entry. -/
theorem pay_apply (v0 v1 : FVec Ideal S5000x96 .f32) (v5 : FVec Ideal S96x96 .f32) (v8 : FVec Ideal S1x96 .f32)
    (v15 : FVec Ideal S96x96 .f32) (v18 : FVec Ideal S1x96 .f32) (p : Fin 5000) (q : Fin 96) :
    k1_pay1 (F := Ideal) v0 v1 v5 v8 v15 v18 (ix2 p q) = nodeBlock v0 v1 v5 v8 v15 v18 p q := by
  unfold k1_pay1 nodeBlock
  simp only [shapeCast_self]
  rw [maximumf_apply, addf_apply, broadcast_apply, broadcastTo_1b_ab_apply, dot_plain,
    Cert.PlainDot.matmul_zero_plain_apply]
  refine congrArg₂ max (congrArg₂ (· + ·) (Finset.sum_congr rfl fun k _ => ?_) rfl) rfl
  rw [hidden_apply, truncf_apply]

/-- The second node region's body is the same text: its stored value at an entry is the same formula. -/
theorem pay3_apply (v0 v1 : FVec Ideal S5000x96 .f32) (v5 : FVec Ideal S96x96 .f32) (v8 : FVec Ideal S1x96 .f32)
    (v15 : FVec Ideal S96x96 .f32) (v18 : FVec Ideal S1x96 .f32) (p : Fin 5000) (q : Fin 96) :
    k3_pay1 (F := Ideal) v0 v1 v5 v8 v15 v18 (ix2 p q) = nodeBlock v0 v1 v5 v8 v15 v18 p q := by
  unfold k3_pay1 nodeBlock
  simp only [shapeCast_self]
  rw [maximumf_apply, addf_apply, broadcast_apply, broadcastTo_1b_ab_apply, dot_plain,
    Cert.PlainDot.matmul_zero_plain_apply]
  refine congrArg₂ max (congrArg₂ (· + ·) (Finset.sum_congr rfl fun k _ => ?_) rfl) rfl
  rw [hidden_apply, truncf_apply]

/-- Block T of the node stage: when the feature block and the summed-message block are rows T·5000 … T·5000+4999 of
    their arrays, the body's value at (p, q) is the whole-array node update at row T·5000 + p, column q. -/
theorem block_eq (x agg : FVec Ideal Cert.Gine.SNxC .f32) (w1 : FVec Ideal Cert.Gine.SCxC .f32)
    (b1r : FVec Ideal Cert.Gine.S1xC .f32) (w2 : FVec Ideal Cert.Gine.SCxC .f32) (b2r : FVec Ideal Cert.Gine.S1xC .f32)
    (x0 x1 : FVec Ideal S5000x96 .f32) (T : ℕ) (hT : T < 10)
    (h0 : ∀ (p : Fin 5000) (q : Fin 96), x0 (ix2 p q) = x (ix2 (⟨T * 5000 + p.val, by omega⟩ : Fin 50000) q))
    (h1 : ∀ (p : Fin 5000) (q : Fin 96), x1 (ix2 p q) = agg (ix2 (⟨T * 5000 + p.val, by omega⟩ : Fin 50000) q))
    (p : Fin 5000) (q : Fin 96) :
    nodeBlock x0 x1 w1 b1r w2 b2r p q
      = Cert.Gine.nodeMlp x agg w1 (Cert.Gine.rowVec b1r) w2 (Cert.Gine.rowVec b2r)
          (ix2 (⟨T * 5000 + p.val, by omega⟩ : Fin 50000) q) := by
  unfold nodeBlock Cert.Gine.nodeMlp Cert.Gine.nodeHidden Cert.Gine.rowVec
  simp only [h0, h1]

end Cert.KernelIdeal.NodeBody

end
-- ==== Proof.Region1.lean ====
/-
  Node region of the first layer: after its 10 grid points the output array holds the node stage's update of
  the arrays the region found. Point t reads rows t·5000 … t·5000+4999 of the node features and of the summed
  messages, the weights and bias rows whole, and writes back the same rows of the output; the 10 row blocks tile the
  50000 rows, so every entry of the output is written by the point t = row / 5000.
-/
import proofs.«105474_j29618094473563_1_alg».proof.Proof.Gen.KernelIdeal.Frame
import proofs.«105474_j29618094473563_1_alg».proof.Proof.Spec
import proofs.«105474_j29618094473563_1_alg».proof.Proof.NodeBody
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked windows sit at block row t, column block 0; the four
    whole-array windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 10 := by
  have h : t.val < grid1.N := t.isLt
  rw [N_1] at h; exact h

/-- A whole-array window's block is its array. -/
theorem whole2 (c : Dev nD) (t : Fin cfg1.N) : iblk1 V c 2 t = V c main_arg7 := by
  obtain ⟨-, -, -, -, e0, e1, -⟩ := idx_facts t
  funext y
  show V c main_arg7 (((cfg1.win 2).blk t).view.emb y) = V c main_arg7 y
  refine congrArg _ (funext fun a => Fin.ext ?_)
  match a with
  | ⟨0, _⟩ => show win1_2.index t (0 : Fin 2) * 96 + 1 * (y 0).val = (y 0).val; omega
  | ⟨1, _⟩ => show win1_2.index t (1 : Fin 2) * 96 + 1 * (y 1).val = (y 1).val; omega
theorem whole3 (c : Dev nD) (t : Fin cfg1.N) : iblk1 V c 3 t = V c main_v6 := by
  obtain ⟨-, -, -, -, -, -, e0, e1, -⟩ := idx_facts t
  funext y
  show V c main_v6 (((cfg1.win 3).blk t).view.emb y) = V c main_v6 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 96 + 1 * (y 1).val = (y 1).val; omega
theorem whole4 (c : Dev nD) (t : Fin cfg1.N) : iblk1 V c 4 t = V c main_arg9 := by
  obtain ⟨-, -, -, -, -, -, -, -, e0, e1, -⟩ := idx_facts t
  funext y
  show V c main_arg9 (((cfg1.win 4).blk t).view.emb y) = V c main_arg9 y
  refine congrArg _ (funext fun a => Fin.ext ?_)
  match a with
  | ⟨0, _⟩ => show win1_4.index t (0 : Fin 2) * 96 + 1 * (y 0).val = (y 0).val; omega
  | ⟨1, _⟩ => show win1_4.index t (1 : Fin 2) * 96 + 1 * (y 1).val = (y 1).val; omega
theorem whole5 (c : Dev nD) (t : Fin cfg1.N) : iblk1 V c 5 t = V c main_v7 := by
  obtain ⟨-, -, -, -, -, -, -, -, -, -, e0, e1, -⟩ := idx_facts t
  funext y
  show V c main_v7 (((cfg1.win 5).blk t).view.emb y) = V c main_v7 y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 96 + 1 * (y 1).val = (y 1).val; omega

/-- Point t's block of node features is rows t·5000 … of that array. -/
theorem rows0 (c : Dev nD) (t : Fin cfg1.N) (p : Fin 5000) (q : Fin 96) :
    iblk1 V c 0 t (ix2 p q)
      = V c main_arg0 (ix2 (⟨t.val * 5000 + p.val, by have := t_lt t; omega⟩ : Fin 50000) q) := by
  obtain ⟨e0, e1, -⟩ := idx_facts t
  show V c main_arg0 (((cfg1.win 0).blk t).view.emb (ix2 p q)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 96 + 1 * q.val = q.val; omega

/-- Point t's block of summed messages is rows t·5000 … of that array. -/
theorem rows1 (c : Dev nD) (t : Fin cfg1.N) (p : Fin 5000) (q : Fin 96) :
    iblk1 V c 1 t (ix2 p q)
      = V c main_v20 (ix2 (⟨t.val * 5000 + p.val, by have := t_lt t; omega⟩ : Fin 50000) q) := by
  obtain ⟨-, -, e0, e1, -⟩ := idx_facts t
  show V c main_v20 (((cfg1.win 1).blk t).view.emb (ix2 p q)) = _
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 96 + 1 * q.val = q.val; omega

/-- What point t writes back is block t of the node update of the arrays the region found. -/
theorem flushed_eq (c : Dev nD) (t : Fin cfg1.N) :
    (dat1 (F := Ideal) V c).flushed 6 t = ((cfg1.win 6).blk t).view.read (Elt Ideal)
      (Cert.Gine.nodeMlp (V c main_arg0) (V c main_v20) (V c main_arg7) (Cert.Gine.rowVec (V c main_v6))
        (V c main_arg9) (Cert.Gine.rowVec (V c main_v7))) := by
  show (cfg1.win 6).cut (grid1.coords t) ((dat1 (F := Ideal) V c).after 6 t) = _
  rw [after1_6]
  unfold out1_6
  rw [View.canon_unit_zero hz]
  simp only [View.ld_unit_zero (S := S5000x96) hz, View.ld_unit_zero (S := S1x96) hz, View.ld_unit_zero (S := S96x96) hz]
  rw [whole2 V c t, whole3 V c t, whole4 V c t, whole5 V c t]
  obtain ⟨-, -, -, -, -, -, -, -, -, -, -, -, e0, e1⟩ := idx_facts t
  funext j
  have hemb : ((cfg1.win 6).blk t).view.emb j
      = ix2 (⟨t.val * 5000 + (j 0).val, by have := t_lt t; have h5 : (j 0).val < 5000 := (j 0).isLt; show _ < 50000; omega⟩ : Fin 50000) (j 1) := by
    funext a; apply Fin.ext
    match a with
    | ⟨0, _⟩ => show win1_6.index t (0 : Fin 2) * 5000 + 1 * (j 0).val = t.val * 5000 + (j 0).val; omega
    | ⟨1, _⟩ => show win1_6.index t (1 : Fin 2) * 96 + 1 * (j 1).val = (j 1).val; omega
  refine Eq.trans (congrArg (k1_pay1 (F := Ideal) (iblk1 V c 0 t) (iblk1 V c 1 t) (V c main_arg7) (V c main_v6) (V c main_arg9) (V c main_v7)) (eq_ix2 j)) ?_
  refine Eq.trans (Cert.KernelIdeal.NodeBody.pay_apply (iblk1 V c 0 t) (iblk1 V c 1 t) (V c main_arg7) (V c main_v6) (V c main_arg9) (V c main_v7) (j 0) (j 1)) ?_
  refine Eq.trans (Cert.KernelIdeal.NodeBody.block_eq (V c main_arg0) (V c main_v20) (V c main_arg7) (V c main_v6) (V c main_arg9) (V c main_v7)
    (iblk1 V c 0 t) (iblk1 V c 1 t) t.val (t_lt t) (rows0 V c t) (rows1 V c t) (j 0) (j 1)) ?_
  exact congrArg _ hemb.symm

/-- An entry of the output array is in point t's block iff each coordinate is in the block's range. -/
theorem mem_blk (t : Fin cfg1.N) (i : S50000x96.Idx) :
    i ∈ ((cfg1.win 6).blk t).view.set ↔ ∀ a : Fin 2, win1_6.index t a * S5000x96.size a ≤ (i a).val
      ∧ (i a).val < win1_6.index t a * S5000x96.size a + S5000x96.size a := by
  show i ∈ ((View.whole main_v21).slice (win1_6.rect t)).set ↔ _
  rw [View.set_slice_whole, Rect.mem_set_unit]
  exact Iff.rfl

/-- Every entry of the output array is in the block of the point t = row / 5000. -/
theorem cover (i : S50000x96.Idx) :
    ∃ t : Fin cfg1.N, (cfg1.win 6).flush t = true ∧ i ∈ ((cfg1.win 6).blk t).view.set := by
  have hi0 : (i 0).val < 50000 := (i 0).isLt
  have hi1 : (i 1).val < 96 := (i 1).isLt
  obtain ⟨t, ht⟩ : ∃ t : Fin cfg1.N, t.val = (i 0).val / 5000 :=
    ⟨⟨(i 0).val / 5000, by show (i 0).val / 5000 < grid1.N; rw [N_1]; omega⟩, rfl⟩
  obtain ⟨-, -, -, -, -, -, -, -, -, -, -, -, e0, e1⟩ := idx_facts t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 96 ≤ (i 1).val ∧ (i 1).val < win1_6.index t (1 : Fin 2) * 96 + 96
    omega

/-- The output array after the region: the node stage's update of the arrays the region found. -/
theorem final (c : Dev nD) :
    (dat1 (F := Ideal) V c).arrAt 6 cfg1.N
      = Cert.Gine.nodeMlp (V c main_arg0) (V c main_v20) (V c main_arg7) (Cert.Gine.rowVec (V c main_v6)) (V c main_arg9) (Cert.Gine.rowVec (V c main_v7)) :=
  (dat1 (F := Ideal) V c).arrAt_eq_of_cover 6 _ (fun t _ => flushed_eq V c t) cover

end Cert.KernelIdeal.Region1

end
-- ==== Proof.Region2.lean ====
/-
  Edge region of the second layer: after its 200 grid points the output array holds the edge stage's message
  array of the arrays the region found. Point t reads rows t·4000 … t·4000+3999 of the attribute column and of the
  gathered node rows, the weights and bias rows whole, and writes back the same rows of the output; the 200 row
  blocks tile the 800000 rows, so every entry of the output is written by the point t = row / 4000.
-/
import proofs.«105474_j29618094473563_1_alg».proof.Proof.Gen.KernelIdeal.Frame
import proofs.«105474_j29618094473563_1_alg».proof.Proof.Spec
import proofs.«105474_j29618094473563_1_alg».proof.Proof.EdgeBody
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked windows sit at block row t, column block 0; the four
    whole-array windows at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem t_lt (t : Fin cfg2.N) : t.val < 200 := by
  have h : t.val < grid2.N := t.isLt
  rw [N_2] at h; exact h

/-- A whole-array window's block is its array. -/
theorem whole2 (c : Dev nD) (t : Fin cfg2.N) : iblk2 V c 2 t = V c main_arg3 := by
  obtain ⟨-, -, -, -, e0, e1, -⟩ := idx_facts t
  funext y
  show V c main_arg3 (((cfg2.win 2).blk t).view.emb y) = V c main_arg3 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 96 + 1 * (y 1).val = (y 1).val; omega
theorem whole3 (c : Dev nD) (t : Fin cfg2.N) : iblk2 V c 3 t = V c main_v4 := by
  obtain ⟨-, -, -, -, -, -, e0, e1, -⟩ := idx_facts t
  funext y
  show V c main_v4 (((cfg2.win 3).blk t).view.emb y) = V c main_v4 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 96 + 1 * (y 1).val = (y 1).val; omega
theorem whole4 (c : Dev nD) (t : Fin cfg2.N) : iblk2 V c 4 t = V c main_arg5 := by
  obtain ⟨-, -, -, -, -, -, -, -, e0, e1, -⟩ := idx_facts t
  funext y
  show V c main_arg5 (((cfg2.win 4).blk t).view.emb y) = V c main_arg5 y
  refine congrArg _ (funext fun a => Fin.ext ?_)
  match a with
  | ⟨0, _⟩ => show win2_4.index t (0 : Fin 2) * 96 + 1 * (y 0).val = (y 0).val; omega
  | ⟨1, _⟩ => show win2_4.index t (1 : Fin 2) * 96 + 1 * (y 1).val = (y 1).val; omega
theorem whole5 (c : Dev nD) (t : Fin cfg2.N) : iblk2 V c 5 t = V c main_v5 := by
  obtain ⟨-, -, -, -, -, -, -, -, -, -, e0, e1, -⟩ := idx_facts t
  funext y
  show V c main_v5 (((cfg2.win 5).blk t).view.emb y) = V c main_v5 y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 96 + 1 * (y 1).val = (y 1).val; omega

/-- Point t's attribute block is rows t·4000 … of the attribute column. -/
theorem rows0 (c : Dev nD) (t : Fin cfg2.N) (p : Fin 4000) :
    iblk2 V c 0 t (ix2 p (0 : Fin 1))
      = V c main_arg2 (ix2 (⟨t.val * 4000 + p.val, by have := t_lt t; omega⟩ : Fin 800000) (0 : Fin 1)) := by
  obtain ⟨e0, e1, -⟩ := idx_facts t
  show V c main_arg2 (((cfg2.win 0).blk t).view.emb (ix2 p (0 : Fin 1))) = _
  refine congrArg _ (funext fun a => Fin.ext ?_)
  match a with
  | ⟨0, _⟩ => show win2_0.index t (0 : Fin 2) * 4000 + 1 * p.val = t.val * 4000 + p.val; omega
  | ⟨1, _⟩ => show win2_0.index t (1 : Fin 2) * 1 + 1 * 0 = 0; omega

/-- Point t's block of gathered node rows is rows t·4000 … of that array. -/
theorem rows1 (c : Dev nD) (t : Fin cfg2.N) (p : Fin 4000) (q : Fin 96) :
    iblk2 V c 1 t (ix2 p q)
      = V c main_v29 (ix2 (⟨t.val * 4000 + p.val, by have := t_lt t; omega⟩ : Fin 800000) q) := by
  obtain ⟨-, -, e0, e1, -⟩ := idx_facts t
  show V c main_v29 (((cfg2.win 1).blk t).view.emb (ix2 p q)) = _
  refine congrArg _ (funext fun a => Fin.ext ?_)
  match a with
  | ⟨0, _⟩ => show win2_1.index t (0 : Fin 2) * 4000 + 1 * p.val = t.val * 4000 + p.val; omega
  | ⟨1, _⟩ => show win2_1.index t (1 : Fin 2) * 96 + 1 * q.val = q.val; omega

/-- What point t writes back is block t of the message array of the arrays the region found. -/
theorem flushed_eq (c : Dev nD) (t : Fin cfg2.N) :
    (dat2 (F := Ideal) V c).flushed 6 t = ((cfg2.win 6).blk t).view.read (Elt Ideal)
      (Cert.Gine.edgeMsg (V c main_arg2) (V c main_v29) (V c main_arg3) (Cert.Gine.rowVec (V c main_v4))
        (V c main_arg5) (Cert.Gine.rowVec (V c main_v5))) := by
  show (cfg2.win 6).cut (grid2.coords t) ((dat2 (F := Ideal) V c).after 6 t) = _
  rw [after2_6]
  unfold out2_6
  rw [View.canon_unit_zero hz]
  simp only [View.ld_unit_zero (S := S4000x1) hz, View.ld_unit_zero (S := S1x96) hz, View.ld_unit_zero (S := S96x96) hz,
    View.ld_unit_zero (S := S4000x96) hz]
  rw [whole2 V c t, whole3 V c t, whole4 V c t, whole5 V c t]
  obtain ⟨-, -, -, -, -, -, -, -, -, -, -, -, e0, e1⟩ := idx_facts t
  funext j
  have hemb : ((cfg2.win 6).blk t).view.emb j
      = ix2 (⟨t.val * 4000 + (j 0).val, by have := t_lt t; have h4 : (j 0).val < 4000 := (j 0).isLt; show _ < 800000; omega⟩ : Fin 800000) (j 1) := by
    funext a; apply Fin.ext
    match a with
    | ⟨0, _⟩ => show win2_6.index t (0 : Fin 2) * 4000 + 1 * (j 0).val = t.val * 4000 + (j 0).val; omega
    | ⟨1, _⟩ => show win2_6.index t (1 : Fin 2) * 96 + 1 * (j 1).val = (j 1).val; omega
  refine Eq.trans (congrArg (k2_pay1 (F := Ideal) (iblk2 V c 0 t) (V c main_arg3) (V c main_v4) (V c main_arg5) (V c main_v5) (iblk2 V c 1 t)) (eq_ix2 j)) ?_
  refine Eq.trans (Cert.KernelIdeal.EdgeBody.pay2_apply (iblk2 V c 0 t) (V c main_arg3) (V c main_v4) (V c main_arg5) (V c main_v5) (iblk2 V c 1 t) (j 0) (j 1)) ?_
  refine Eq.trans (Cert.KernelIdeal.EdgeBody.block_eq (V c main_arg2) (V c main_v29) (V c main_arg3) (V c main_v4) (V c main_arg5) (V c main_v5)
    (iblk2 V c 0 t) (iblk2 V c 1 t) t.val (t_lt t) (rows0 V c t) (rows1 V c t) (j 0) (j 1)) ?_
  exact congrArg _ hemb.symm

/-- An entry of the output array is in point t's block iff each coordinate is in the block's range. -/
theorem mem_blk (t : Fin cfg2.N) (i : S800000x96.Idx) :
    i ∈ ((cfg2.win 6).blk t).view.set ↔ ∀ a : Fin 2, win2_6.index t a * S4000x96.size a ≤ (i a).val
      ∧ (i a).val < win2_6.index t a * S4000x96.size a + S4000x96.size a := by
  show i ∈ ((View.whole main_v30).slice (win2_6.rect t)).set ↔ _
  rw [View.set_slice_whole, Rect.mem_set_unit]
  exact Iff.rfl

/-- Every entry of the output array is in the block of the point t = row / 4000. -/
theorem cover (i : S800000x96.Idx) :
    ∃ t : Fin cfg2.N, (cfg2.win 6).flush t = true ∧ i ∈ ((cfg2.win 6).blk t).view.set := by
  have hi0 : (i 0).val < 800000 := (i 0).isLt
  have hi1 : (i 1).val < 96 := (i 1).isLt
  obtain ⟨t, ht⟩ : ∃ t : Fin cfg2.N, t.val = (i 0).val / 4000 :=
    ⟨⟨(i 0).val / 4000, by show (i 0).val / 4000 < grid2.N; rw [N_2]; omega⟩, rfl⟩
  obtain ⟨-, -, -, -, -, -, -, -, -, -, -, -, e0, e1⟩ := idx_facts t
  refine ⟨t, flush2_6 t, ?_⟩
  rw [mem_blk]
  intro a
  match a with
  | ⟨0, _⟩ =>
    show win2_6.index t (0 : Fin 2) * 4000 ≤ (i 0).val ∧ (i 0).val < win2_6.index t (0 : Fin 2) * 4000 + 4000
    omega
  | ⟨1, _⟩ =>
    show win2_6.index t (1 : Fin 2) * 96 ≤ (i 1).val ∧ (i 1).val < win2_6.index t (1 : Fin 2) * 96 + 96
    omega

/-- The output array after the region: the edge stage's messages of the arrays the region found. -/
theorem final (c : Dev nD) :
    (dat2 (F := Ideal) V c).arrAt 6 cfg2.N
      = Cert.Gine.edgeMsg (V c main_arg2) (V c main_v29) (V c main_arg3) (Cert.Gine.rowVec (V c main_v4)) (V c main_arg5) (Cert.Gine.rowVec (V c main_v5)) :=
  (dat2 (F := Ideal) V c).arrAt_eq_of_cover 6 _ (fun t _ => flushed_eq V c t) cover

end Cert.KernelIdeal.Region2

end
-- ==== Proof.Region3.lean ====
/-
  Node region of the second layer: after its 10 grid points the output array holds the node stage's update of
  the arrays the region found. Point t reads rows t·5000 … t·5000+4999 of the node features and of the summed
  messages, the weights and bias rows whole, and writes back the same rows of the output; the 10 row blocks tile the
  50000 rows, so every entry of the output is written by the point t = row / 5000.
-/
import proofs.«105474_j29618094473563_1_alg».proof.Proof.Gen.KernelIdeal.Frame
import proofs.«105474_j29618094473563_1_alg».proof.Proof.Spec
import proofs.«105474_j29618094473563_1_alg».proof.Proof.NodeBody
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked windows sit at block row t, column block 0; the four
    whole-array windows at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

theorem t_lt (t : Fin cfg3.N) : t.val < 10 := by
  have h : t.val < grid3.N := t.isLt
  rw [N_3] at h; exact h

/-- A whole-array window's block is its array. -/
theorem whole2 (c : Dev nD) (t : Fin cfg3.N) : iblk3 V c 2 t = V c main_arg11 := by
  obtain ⟨-, -, -, -, e0, e1, -⟩ := idx_facts t
  funext y
  show V c main_arg11 (((cfg3.win 2).blk t).view.emb y) = V c main_arg11 y
  refine congrArg _ (funext fun a => Fin.ext ?_)
  match a with
  | ⟨0, _⟩ => show win3_2.index t (0 : Fin 2) * 96 + 1 * (y 0).val = (y 0).val; omega
  | ⟨1, _⟩ => show win3_2.index t (1 : Fin 2) * 96 + 1 * (y 1).val = (y 1).val; omega
theorem whole3 (c : Dev nD) (t : Fin cfg3.N) : iblk3 V c 3 t = V c main_v8 := by
  obtain ⟨-, -, -, -, -, -, e0, e1, -⟩ := idx_facts t
  funext y
  show V c main_v8 (((cfg3.win 3).blk t).view.emb y) = V c main_v8 y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 96 + 1 * (y 1).val = (y 1).val; omega
theorem whole4 (c : Dev nD) (t : Fin cfg3.N) : iblk3 V c 4 t = V c main_arg13 := by
  obtain ⟨-, -, -, -, -, -, -, -, e0, e1, -⟩ := idx_facts t
  funext y
  show V c main_arg13 (((cfg3.win 4).blk t).view.emb y) = V c main_arg13 y
  refine congrArg _ (funext fun a => Fin.ext ?_)
  match a with
  | ⟨0, _⟩ => show win3_4.index t (0 : Fin 2) * 96 + 1 * (y 0).val = (y 0).val; omega
  | ⟨1, _⟩ => show win3_4.index t (1 : Fin 2) * 96 + 1 * (y 1).val = (y 1).val; omega
theorem whole5 (c : Dev nD) (t : Fin cfg3.N) : iblk3 V c 5 t = V c main_v9 := by
  obtain ⟨-, -, -, -, -, -, -, -, -, -, e0, e1, -⟩ := idx_facts t
  funext y
  show V c main_v9 (((cfg3.win 5).blk t).view.emb y) = V c main_v9 y
  refine congrArg _ (funext fun a => Fin.ext ?_)
  match a with
  | ⟨0, _⟩ => show win3_5.index t (0 : Fin 2) * 1 + 1 * (y 0).val = (y 0).val; omega
  | ⟨1, _⟩ => show win3_5.index t (1 : Fin 2) * 96 + 1 * (y 1).val = (y 1).val; omega

/-- Point t's block of node features is rows t·5000 … of that array. -/
theorem rows0 (c : Dev nD) (t : Fin cfg3.N) (p : Fin 5000) (q : Fin 96) :
    iblk3 V c 0 t (ix2 p q)
      = V c main_v22 (ix2 (⟨t.val * 5000 + p.val, by have := t_lt t; omega⟩ : Fin 50000) q) := by
  obtain ⟨e0, e1, -⟩ := idx_facts t
  show V c main_v22 (((cfg3.win 0).blk t).view.emb (ix2 p q)) = _
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 96 + 1 * q.val = q.val; omega

/-- Point t's block of summed messages is rows t·5000 … of that array. -/
theorem rows1 (c : Dev nD) (t : Fin cfg3.N) (p : Fin 5000) (q : Fin 96) :
    iblk3 V c 1 t (ix2 p q)
      = V c main_v33 (ix2 (⟨t.val * 5000 + p.val, by have := t_lt t; omega⟩ : Fin 50000) q) := by
  obtain ⟨-, -, e0, e1, -⟩ := idx_facts t
  show V c main_v33 (((cfg3.win 1).blk t).view.emb (ix2 p q)) = _
  refine congrArg _ (funext fun a => Fin.ext ?_)
  match a with
  | ⟨0, _⟩ => show win3_1.index t (0 : Fin 2) * 5000 + 1 * p.val = t.val * 5000 + p.val; omega
  | ⟨1, _⟩ => show win3_1.index t (1 : Fin 2) * 96 + 1 * q.val = q.val; omega

/-- What point t writes back is block t of the node update of the arrays the region found. -/
theorem flushed_eq (c : Dev nD) (t : Fin cfg3.N) :
    (dat3 (F := Ideal) V c).flushed 6 t = ((cfg3.win 6).blk t).view.read (Elt Ideal)
      (Cert.Gine.nodeMlp (V c main_v22) (V c main_v33) (V c main_arg11) (Cert.Gine.rowVec (V c main_v8))
        (V c main_arg13) (Cert.Gine.rowVec (V c main_v9))) := by
  show (cfg3.win 6).cut (grid3.coords t) ((dat3 (F := Ideal) V c).after 6 t) = _
  rw [after3_6]
  unfold out3_6
  rw [View.canon_unit_zero hz]
  simp only [View.ld_unit_zero (S := S5000x96) hz, View.ld_unit_zero (S := S1x96) hz, View.ld_unit_zero (S := S96x96) hz]
  rw [whole2 V c t, whole3 V c t, whole4 V c t, whole5 V c t]
  obtain ⟨-, -, -, -, -, -, -, -, -, -, -, -, e0, e1⟩ := idx_facts t
  funext j
  have hemb : ((cfg3.win 6).blk t).view.emb j
      = ix2 (⟨t.val * 5000 + (j 0).val, by have := t_lt t; have h5 : (j 0).val < 5000 := (j 0).isLt; show _ < 50000; omega⟩ : Fin 50000) (j 1) := by
    funext a; apply Fin.ext
    match a with
    | ⟨0, _⟩ => show win3_6.index t (0 : Fin 2) * 5000 + 1 * (j 0).val = t.val * 5000 + (j 0).val; omega
    | ⟨1, _⟩ => show win3_6.index t (1 : Fin 2) * 96 + 1 * (j 1).val = (j 1).val; omega
  refine Eq.trans (congrArg (k3_pay1 (F := Ideal) (iblk3 V c 0 t) (iblk3 V c 1 t) (V c main_arg11) (V c main_v8) (V c main_arg13) (V c main_v9)) (eq_ix2 j)) ?_
  refine Eq.trans (Cert.KernelIdeal.NodeBody.pay3_apply (iblk3 V c 0 t) (iblk3 V c 1 t) (V c main_arg11) (V c main_v8) (V c main_arg13) (V c main_v9) (j 0) (j 1)) ?_
  refine Eq.trans (Cert.KernelIdeal.NodeBody.block_eq (V c main_v22) (V c main_v33) (V c main_arg11) (V c main_v8) (V c main_arg13) (V c main_v9)
    (iblk3 V c 0 t) (iblk3 V c 1 t) t.val (t_lt t) (rows0 V c t) (rows1 V c t) (j 0) (j 1)) ?_
  exact congrArg _ hemb.symm

/-- An entry of the output array is in point t's block iff each coordinate is in the block's range. -/
theorem mem_blk (t : Fin cfg3.N) (i : S50000x96.Idx) :
    i ∈ ((cfg3.win 6).blk t).view.set ↔ ∀ a : Fin 2, win3_6.index t a * S5000x96.size a ≤ (i a).val
      ∧ (i a).val < win3_6.index t a * S5000x96.size a + S5000x96.size a := by
  show i ∈ ((View.whole main_v34).slice (win3_6.rect t)).set ↔ _
  rw [View.set_slice_whole, Rect.mem_set_unit]
  exact Iff.rfl

/-- Every entry of the output array is in the block of the point t = row / 5000. -/
theorem cover (i : S50000x96.Idx) :
    ∃ t : Fin cfg3.N, (cfg3.win 6).flush t = true ∧ i ∈ ((cfg3.win 6).blk t).view.set := by
  have hi0 : (i 0).val < 50000 := (i 0).isLt
  have hi1 : (i 1).val < 96 := (i 1).isLt
  obtain ⟨t, ht⟩ : ∃ t : Fin cfg3.N, t.val = (i 0).val / 5000 :=
    ⟨⟨(i 0).val / 5000, by show (i 0).val / 5000 < grid3.N; rw [N_3]; omega⟩, rfl⟩
  obtain ⟨-, -, -, -, -, -, -, -, -, -, -, -, e0, e1⟩ := idx_facts t
  refine ⟨t, flush3_6 t, ?_⟩
  rw [mem_blk]
  intro a
  match a with
  | ⟨0, _⟩ =>
    show win3_6.index t (0 : Fin 2) * 5000 ≤ (i 0).val ∧ (i 0).val < win3_6.index t (0 : Fin 2) * 5000 + 5000
    omega
  | ⟨1, _⟩ =>
    show win3_6.index t (1 : Fin 2) * 96 ≤ (i 1).val ∧ (i 1).val < win3_6.index t (1 : Fin 2) * 96 + 96
    omega

/-- The output array after the region: the node stage's update of the arrays the region found. -/
theorem final (c : Dev nD) :
    (dat3 (F := Ideal) V c).arrAt 6 cfg3.N
      = Cert.Gine.nodeMlp (V c main_v22) (V c main_v33) (V c main_arg11) (Cert.Gine.rowVec (V c main_v8)) (V c main_arg13) (Cert.Gine.rowVec (V c main_v9)) :=
  (dat3 (F := Ideal) V c).arrAt_eq_of_cover 6 _ (fun t _ => flushed_eq V c t) cover

end Cert.KernelIdeal.Region3

end
-- ==== Proof.KernelChain.lean ====
/-
  The kernel program's result, read back to the two-layer network of the launch arrays.

  The program's run folds the buffer contents through six stretches of host operations and four regions. Walking back
  from the result buffer at the last boundary: the result is the max with 0 of the fourth region's output; a node
  region's output is the node stage of its entry contents; the aggregate it reads is the scatter-add, per target node
  and from an all-zero array, of the preceding edge region's output; an edge region's output is the edge stage of its
  entry contents; the per-edge rows it reads are the gather, by source node, of the node array of that layer; the
  weights, the biases (kept as one-row matrices, read back as vectors) and the two rows of the edge list are what the
  first host stretch computes from the launch memory, and no later segment writes them. Assembled, the result buffer
  holds the network of the launch arrays over the program's own gather and scatter-add. Every step reads one
  operation at a buffer; no arithmetic law is used.
-/
import proofs.«105474_j29618094473563_1_alg».proof.Proof.Gen.KernelIdeal.Frame
import proofs.«105474_j29618094473563_1_alg».proof.Proof.Spec
import proofs.«105474_j29618094473563_1_alg».proof.Proof.Region0
import proofs.«105474_j29618094473563_1_alg».proof.Proof.Region1
import proofs.«105474_j29618094473563_1_alg».proof.Proof.Region2
import proofs.«105474_j29618094473563_1_alg».proof.Proof.Region3
import proofs.«105474_j29618094473563_1_alg».proof.Proof.Bridge
import Idealize.ShloMosaic.Lib.StableHlo.Run
import Idealize.ShloMosaic.Lib.ValueLayout
import Idealize.ShloMosaic.Lib.Pipeline.Value

set_option maxRecDepth 16384

noncomputable section

namespace Cert.KernelIdeal.Chain

open Cert.KernelIdeal Cert.KernelIdeal.Gen Idealize.ShloMosaic Idealize.ShloMosaic.TcCoe Idealize.ShloMosaic.ValueIdx

variable (m : (ℓ : Loc nD τ sig) → Buf (Elt Ideal) ℓ) (ρ : Dev nD → PrngReg)

/-! ## A host stretch leaves the buffers it does not write -/

/-- A buffer that no operation of `hostOps0` writes holds after the stretch what it held before. -/
theorem keep0 (W : Valuation τ sig (Elt Ideal)) (b : Ref sig .tc)
    (hb : b ∉ ([main_v0, main_v1, main_v2, main_v3, main_v4, main_v5, main_v6, main_v7, main_v8, main_v9, main_c, main_v10, main_v11, main_c_0, main_v12, main_v13, main_v14, main_v15, main_v16] : List (Ref sig .tc))) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (ne_of_mem_of_not_mem (by decide) hb).symm))

/-- A buffer that no operation of `hostOps1` writes holds after the stretch what it held before. -/
theorem keep1 (W : Valuation τ sig (Elt Ideal)) (b : Ref sig .tc)
    (hb : b ∉ ([main_cst, main_v18, main_v19, main_v20] : List (Ref sig .tc))) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (ne_of_mem_of_not_mem (by decide) hb).symm))

/-- A buffer that no operation of `hostOps2` writes holds after the stretch what it held before. -/
theorem keep2 (W : Valuation τ sig (Elt Ideal)) (b : Ref sig .tc)
    (hb : b ∉ ([main_call0_cst, main_call0_v0, main_v22] : List (Ref sig .tc))) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (ne_of_mem_of_not_mem (by decide) hb).symm))

/-- A buffer that no operation of `hostOps2_1` writes holds after the stretch what it held before. -/
theorem keep2_1 (W : Valuation τ sig (Elt Ideal)) (b : Ref sig .tc)
    (hb : b ∉ ([main_c_1, main_v23, main_v24, main_c_2, main_v25, main_v26, main_v27, main_v28, main_v29] : List (Ref sig .tc))) :
    StableHlo.after hostOps2_1 W (Proc.devRef .tc b) = W (Proc.devRef .tc b) :=
  StableHlo.after_of_forall_not_mem (b := Proc.devRef .tc b) _ _ (List.forall_iff_forall_mem.mp (by
    simp only [hostOps2_1, List.Forall, StableHlo.nullary_writes, StableHlo.unary_writes, StableHlo.binary_writes,
      StableHlo.ternary_writes, StableHlo.reshape_writes, Finset.mem_singleton]
    repeat' apply And.intro
    all_goals exact StableHlo.devRef_ne_of_ne (ne_of_mem_of_not_mem (by decide) hb).symm))

/-- A buffer that no operation of `hostOps3` writes holds after the stretch what it held before. -/
theorem keep3 (W : Valuation τ sig (Elt Ideal)) (b : Ref sig .tc)
    (hb : b ∉ ([main_cst_3, main_v31, main_v32, main_v33] : List (Ref sig .tc))) :
    StableHlo.after hostOps3 W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (ne_of_mem_of_not_mem (by decide) hb).symm))

/-! ## Small facts about the operations the walk meets -/

/-- A bias kept as a one-row matrix by a reshape reads back as the vector it was. -/
theorem rowVec_shapeCast (b : FVec Ideal S96 .f32) (h : S96.ShapeCasts S1x96) :
    Cert.Gine.rowVec (shapeCast S1x96 b h) = b := by
  funext i
  exact (shapeCast_a_1a_apply b h (0 : Fin 1) (i 0)).trans (congrArg b (eq_ix1 i).symm)

/-- The maximum with an all-zero array is the entrywise max with the value of the zero pattern. -/
theorem maximumf_zeros (a : FVec Ideal S50000x96 .f32) :
    maximumf a (broadcastInDim S50000x96 ![] bcast_S_S50000x96 (constant (F := Ideal) S_ .f32 0x00000000#32))
      = Cert.Gine.relu a := by
  funext j
  rw [maximumf_apply]
  exact congrArg (max (a j))
    ((broadcastInDim_apply ![] bcast_S_S50000x96 (constant (F := Ideal) S_ .f32 0x00000000#32) j ix0 (fun a => a.elim0)).trans
      (constant_apply _ _))

/-! ## The contents after the first host stretch, in terms of the launch memory -/

theorem W1_arg0 (c : Dev nD) : Gen.W1 m ρ c (Proc.devRef .tc main_arg0) = m ((c : Thread nD τ).loc main_arg0) :=
  keep0 _ main_arg0 (by decide)
theorem W1_arg2 (c : Dev nD) : Gen.W1 m ρ c (Proc.devRef .tc main_arg2) = m ((c : Thread nD τ).loc main_arg2) :=
  keep0 _ main_arg2 (by decide)
theorem W1_arg3 (c : Dev nD) : Gen.W1 m ρ c (Proc.devRef .tc main_arg3) = m ((c : Thread nD τ).loc main_arg3) :=
  keep0 _ main_arg3 (by decide)
theorem W1_arg5 (c : Dev nD) : Gen.W1 m ρ c (Proc.devRef .tc main_arg5) = m ((c : Thread nD τ).loc main_arg5) :=
  keep0 _ main_arg5 (by decide)
theorem W1_arg7 (c : Dev nD) : Gen.W1 m ρ c (Proc.devRef .tc main_arg7) = m ((c : Thread nD τ).loc main_arg7) :=
  keep0 _ main_arg7 (by decide)
theorem W1_arg9 (c : Dev nD) : Gen.W1 m ρ c (Proc.devRef .tc main_arg9) = m ((c : Thread nD τ).loc main_arg9) :=
  keep0 _ main_arg9 (by decide)
theorem W1_arg11 (c : Dev nD) : Gen.W1 m ρ c (Proc.devRef .tc main_arg11) = m ((c : Thread nD τ).loc main_arg11) :=
  keep0 _ main_arg11 (by decide)
theorem W1_arg13 (c : Dev nD) : Gen.W1 m ρ c (Proc.devRef .tc main_arg13) = m ((c : Thread nD τ).loc main_arg13) :=
  keep0 _ main_arg13 (by decide)

theorem W1_v4 (c : Dev nD) : Cert.Gine.rowVec (Gen.W1 m ρ c (Proc.devRef .tc main_v4)) = m ((c : Thread nD τ).loc main_arg4) := by
  have e : Gen.W1 m ρ c (Proc.devRef .tc main_v4) = shapeCast S1x96 (m ((c : Thread nD τ).loc main_arg4)) shapeCasts_S96_S1x96 := by
    show StableHlo.after hostOps0 (Gen.W0 m ρ c) (Proc.devRef .tc main_v4) = _
    after_results
    rfl
  rw [e]
  exact rowVec_shapeCast _ _
theorem W1_v5 (c : Dev nD) : Cert.Gine.rowVec (Gen.W1 m ρ c (Proc.devRef .tc main_v5)) = m ((c : Thread nD τ).loc main_arg6) := by
  have e : Gen.W1 m ρ c (Proc.devRef .tc main_v5) = shapeCast S1x96 (m ((c : Thread nD τ).loc main_arg6)) shapeCasts_S96_S1x96 := by
    show StableHlo.after hostOps0 (Gen.W0 m ρ c) (Proc.devRef .tc main_v5) = _
    after_results
    rfl
  rw [e]
  exact rowVec_shapeCast _ _
theorem W1_v6 (c : Dev nD) : Cert.Gine.rowVec (Gen.W1 m ρ c (Proc.devRef .tc main_v6)) = m ((c : Thread nD τ).loc main_arg8) := by
  have e : Gen.W1 m ρ c (Proc.devRef .tc main_v6) = shapeCast S1x96 (m ((c : Thread nD τ).loc main_arg8)) shapeCasts_S96_S1x96 := by
    show StableHlo.after hostOps0 (Gen.W0 m ρ c) (Proc.devRef .tc main_v6) = _
    after_results
    rfl
  rw [e]
  exact rowVec_shapeCast _ _
theorem W1_v7 (c : Dev nD) : Cert.Gine.rowVec (Gen.W1 m ρ c (Proc.devRef .tc main_v7)) = m ((c : Thread nD τ).loc main_arg10) := by
  have e : Gen.W1 m ρ c (Proc.devRef .tc main_v7) = shapeCast S1x96 (m ((c : Thread nD τ).loc main_arg10)) shapeCasts_S96_S1x96 := by
    show StableHlo.after hostOps0 (Gen.W0 m ρ c) (Proc.devRef .tc main_v7) = _
    after_results
    rfl
  rw [e]
  exact rowVec_shapeCast _ _
theorem W1_v8 (c : Dev nD) : Cert.Gine.rowVec (Gen.W1 m ρ c (Proc.devRef .tc main_v8)) = m ((c : Thread nD τ).loc main_arg12) := by
  have e : Gen.W1 m ρ c (Proc.devRef .tc main_v8) = shapeCast S1x96 (m ((c : Thread nD τ).loc main_arg12)) shapeCasts_S96_S1x96 := by
    show StableHlo.after hostOps0 (Gen.W0 m ρ c) (Proc.devRef .tc main_v8) = _
    after_results
    rfl
  rw [e]
  exact rowVec_shapeCast _ _
theorem W1_v9 (c : Dev nD) : Cert.Gine.rowVec (Gen.W1 m ρ c (Proc.devRef .tc main_v9)) = m ((c : Thread nD τ).loc main_arg14) := by
  have e : Gen.W1 m ρ c (Proc.devRef .tc main_v9) = shapeCast S1x96 (m ((c : Thread nD τ).loc main_arg14)) shapeCasts_S96_S1x96 := by
    show StableHlo.after hostOps0 (Gen.W0 m ρ c) (Proc.devRef .tc main_v9) = _
    after_results
    rfl
  rw [e]
  exact rowVec_shapeCast _ _

/-- The source nodes: row 0 of the edge list, flattened. -/
theorem W1_v1 (c : Dev nD) : Gen.W1 m ρ c (Proc.devRef .tc main_v1) = (Cert.Bridge.srcK (m ((c : Thread nD τ).loc main_arg1))) := by
  show StableHlo.after hostOps0 (Gen.W0 m ρ c) (Proc.devRef .tc main_v1) = _
  after_results
  rfl

/-- The target nodes: row 1 of the edge list, flattened. -/
theorem W1_v3 (c : Dev nD) : Gen.W1 m ρ c (Proc.devRef .tc main_v3) = (Cert.Bridge.dstK (m ((c : Thread nD τ).loc main_arg1))) := by
  show StableHlo.after hostOps0 (Gen.W0 m ρ c) (Proc.devRef .tc main_v3) = _
  after_results
  rfl

/-- The first gather: the launch node array's rows per edge. -/
theorem W1_v16 (c : Dev nD) : Gen.W1 m ρ c (Proc.devRef .tc main_v16) = Cert.Bridge.gathK (m ((c : Thread nD τ).loc main_arg1)) (m ((c : Thread nD τ).loc main_arg0)) := by
  show StableHlo.after hostOps0 (Gen.W0 m ρ c) (Proc.devRef .tc main_v16) = _
  after_results
  rfl

/-! ## Buffers that keep their contents across later segments -/

/-- Across the first region, at a buffer that is none of its arrays, then the second host stretch. -/
theorem W3_of_W1 (c : Dev nD) (b : Ref sig .tc) (h1 : b ∉ ([main_cst, main_v18, main_v19, main_v20] : List (Ref sig .tc)))
    (h0 : ∀ w, Pipeline.arrRef spec0 w ≠ b) : Gen.W3 m ρ c (Proc.devRef .tc b) = Gen.W1 m ρ c (Proc.devRef .tc b) :=
  (keep1 _ b h1).trans (Gen.W2_of_ne m ρ c b h0)

/-- From the third region's entry back to the first region's exit, at a buffer none of these segments writes. -/
theorem W6_of_W2 (c : Dev nD) (b : Ref sig .tc) (h21 : b ∉ ([main_c_1, main_v23, main_v24, main_c_2, main_v25, main_v26, main_v27, main_v28, main_v29] : List (Ref sig .tc)))
    (h2 : b ∉ ([main_call0_cst, main_call0_v0, main_v22] : List (Ref sig .tc))) (hr : ∀ w, Pipeline.arrRef spec1 w ≠ b)
    (h1 : b ∉ ([main_cst, main_v18, main_v19, main_v20] : List (Ref sig .tc))) : Gen.W6 m ρ c (Proc.devRef .tc b) = Gen.W2 m ρ c (Proc.devRef .tc b) :=
  (keep2_1 _ b h21).trans ((keep2 _ b h2).trans ((Gen.W4_of_ne m ρ c b hr).trans (keep1 _ b h1)))

/-- From the fourth region's entry back to the third region's entry. -/
theorem W8_of_W6 (c : Dev nD) (b : Ref sig .tc) (h3 : b ∉ ([main_cst_3, main_v31, main_v32, main_v33] : List (Ref sig .tc)))
    (hr : ∀ w, Pipeline.arrRef spec2 w ≠ b) : Gen.W8 m ρ c (Proc.devRef .tc b) = Gen.W6 m ρ c (Proc.devRef .tc b) :=
  (keep3 _ b h3).trans (Gen.W7_of_ne m ρ c b hr)

/-! The first region leaves its input arrays as it found them. -/

theorem W2_in_arg2 (c : Dev nD) : Gen.W2 m ρ c (Proc.devRef .tc main_arg2) = Gen.W1 m ρ c (Proc.devRef .tc main_arg2) :=
  (Gen.W2_arr m ρ c 0).trans (((dat0 (Gen.V1 m ρ) c).arrAt_in 0 rfl _).trans (A_eq0 (Gen.V1 m ρ) c 0))
theorem W2_in_arg3 (c : Dev nD) : Gen.W2 m ρ c (Proc.devRef .tc main_arg3) = Gen.W1 m ρ c (Proc.devRef .tc main_arg3) :=
  (Gen.W2_arr m ρ c 2).trans (((dat0 (Gen.V1 m ρ) c).arrAt_in 2 rfl _).trans (A_eq0 (Gen.V1 m ρ) c 2))
theorem W2_in_v4 (c : Dev nD) : Gen.W2 m ρ c (Proc.devRef .tc main_v4) = Gen.W1 m ρ c (Proc.devRef .tc main_v4) :=
  (Gen.W2_arr m ρ c 3).trans (((dat0 (Gen.V1 m ρ) c).arrAt_in 3 rfl _).trans (A_eq0 (Gen.V1 m ρ) c 3))
theorem W2_in_arg5 (c : Dev nD) : Gen.W2 m ρ c (Proc.devRef .tc main_arg5) = Gen.W1 m ρ c (Proc.devRef .tc main_arg5) :=
  (Gen.W2_arr m ρ c 4).trans (((dat0 (Gen.V1 m ρ) c).arrAt_in 4 rfl _).trans (A_eq0 (Gen.V1 m ρ) c 4))
theorem W2_in_v5 (c : Dev nD) : Gen.W2 m ρ c (Proc.devRef .tc main_v5) = Gen.W1 m ρ c (Proc.devRef .tc main_v5) :=
  (Gen.W2_arr m ρ c 5).trans (((dat0 (Gen.V1 m ρ) c).arrAt_in 5 rfl _).trans (A_eq0 (Gen.V1 m ρ) c 5))

/-! ## Layer 1 -/

/-- The first region's output: the messages of layer 1. -/
theorem W2_v17 (c : Dev nD) : Gen.W2 m ρ c (Proc.devRef .tc main_v17) = Cert.Gine.edgeMsg (m ((c : Thread nD τ).loc main_arg2)) (Cert.Bridge.gathK (m ((c : Thread nD τ).loc main_arg1)) (m ((c : Thread nD τ).loc main_arg0))) (m ((c : Thread nD τ).loc main_arg3)) (m ((c : Thread nD τ).loc main_arg4)) (m ((c : Thread nD τ).loc main_arg5)) (m ((c : Thread nD τ).loc main_arg6)) :=
  (Gen.W2_arr m ρ c 6).trans ((Region0.final (Gen.V1 m ρ) c).trans (by
    show Cert.Gine.edgeMsg (Gen.W1 m ρ c (Proc.devRef .tc main_arg2)) (Gen.W1 m ρ c (Proc.devRef .tc main_v16)) (Gen.W1 m ρ c (Proc.devRef .tc main_arg3)) (Cert.Gine.rowVec (Gen.W1 m ρ c (Proc.devRef .tc main_v4)))
      (Gen.W1 m ρ c (Proc.devRef .tc main_arg5)) (Cert.Gine.rowVec (Gen.W1 m ρ c (Proc.devRef .tc main_v5))) = _
    rw [W1_arg2, W1_v16, W1_arg3, W1_v4, W1_arg5, W1_v5]))

theorem W2_v3 (c : Dev nD) : Gen.W2 m ρ c (Proc.devRef .tc main_v3) = (Cert.Bridge.dstK (m ((c : Thread nD τ).loc main_arg1))) :=
  (Gen.W2_of_ne m ρ c main_v3 (by decide)).trans (W1_v3 m ρ c)

/-- The first scatter-add: the messages summed per target node. -/
theorem W3_v20 (c : Dev nD) : Gen.W3 m ρ c (Proc.devRef .tc main_v20) = Cert.Bridge.scatK (m ((c : Thread nD τ).loc main_arg1)) (Cert.Gine.edgeMsg (m ((c : Thread nD τ).loc main_arg2)) (Cert.Bridge.gathK (m ((c : Thread nD τ).loc main_arg1)) (m ((c : Thread nD τ).loc main_arg0))) (m ((c : Thread nD τ).loc main_arg3)) (m ((c : Thread nD τ).loc main_arg4)) (m ((c : Thread nD τ).loc main_arg5)) (m ((c : Thread nD τ).loc main_arg6))) := by
  show StableHlo.after hostOps1 (Gen.W2 m ρ c) (Proc.devRef .tc main_v20) = _
  after_results
  rw [W2_v3, W2_v17]
  rfl

theorem W3_arg0 (c : Dev nD) : Gen.W3 m ρ c (Proc.devRef .tc main_arg0) = m ((c : Thread nD τ).loc main_arg0) :=
  (W3_of_W1 m ρ c main_arg0 (by decide) (by decide)).trans (W1_arg0 m ρ c)
theorem W3_arg7 (c : Dev nD) : Gen.W3 m ρ c (Proc.devRef .tc main_arg7) = m ((c : Thread nD τ).loc main_arg7) :=
  (W3_of_W1 m ρ c main_arg7 (by decide) (by decide)).trans (W1_arg7 m ρ c)
theorem W3_arg9 (c : Dev nD) : Gen.W3 m ρ c (Proc.devRef .tc main_arg9) = m ((c : Thread nD τ).loc main_arg9) :=
  (W3_of_W1 m ρ c main_arg9 (by decide) (by decide)).trans (W1_arg9 m ρ c)
theorem W3_v6 (c : Dev nD) : Cert.Gine.rowVec (Gen.W3 m ρ c (Proc.devRef .tc main_v6)) = m ((c : Thread nD τ).loc main_arg8) := by
  rw [W3_of_W1 m ρ c main_v6 (by decide) (by decide)]
  exact W1_v6 m ρ c
theorem W3_v7 (c : Dev nD) : Cert.Gine.rowVec (Gen.W3 m ρ c (Proc.devRef .tc main_v7)) = m ((c : Thread nD τ).loc main_arg10) := by
  rw [W3_of_W1 m ρ c main_v7 (by decide) (by decide)]
  exact W1_v7 m ρ c

/-- The second region's output: layer 1 before its last max. -/
theorem W4_v21 (c : Dev nD) : Gen.W4 m ρ c (Proc.devRef .tc main_v21) = Cert.Gine.layer (Cert.Bridge.gathK (m ((c : Thread nD τ).loc main_arg1))) (Cert.Bridge.scatK (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg0)) (m ((c : Thread nD τ).loc main_arg7)) (m ((c : Thread nD τ).loc main_arg8)) (m ((c : Thread nD τ).loc main_arg9)) (m ((c : Thread nD τ).loc main_arg10)) :=
  (Gen.W4_arr m ρ c 6).trans ((Region1.final (Gen.V3 m ρ) c).trans (by
    show Cert.Gine.nodeMlp (Gen.W3 m ρ c (Proc.devRef .tc main_arg0)) (Gen.W3 m ρ c (Proc.devRef .tc main_v20)) (Gen.W3 m ρ c (Proc.devRef .tc main_arg7)) (Cert.Gine.rowVec (Gen.W3 m ρ c (Proc.devRef .tc main_v6)))
      (Gen.W3 m ρ c (Proc.devRef .tc main_arg9)) (Cert.Gine.rowVec (Gen.W3 m ρ c (Proc.devRef .tc main_v7))) = _
    rw [W3_arg0, W3_v20, W3_arg7, W3_v6, W3_arg9, W3_v7]
    rfl))

/-- The node array that layer 2 starts from: layer 1 and one more max with 0. -/
def h1 (c : Dev nD) : FVec Ideal S50000x96 .f32 := Cert.Gine.relu (Cert.Gine.layer (Cert.Bridge.gathK (m ((c : Thread nD τ).loc main_arg1))) (Cert.Bridge.scatK (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg0)) (m ((c : Thread nD τ).loc main_arg7)) (m ((c : Thread nD τ).loc main_arg8)) (m ((c : Thread nD τ).loc main_arg9)) (m ((c : Thread nD τ).loc main_arg10)))

theorem W5_v22 (c : Dev nD) : Gen.W5 m ρ c (Proc.devRef .tc main_v22) = h1 m c := by
  show StableHlo.after hostOps2 (Gen.W4 m ρ c) (Proc.devRef .tc main_v22) = _
  after_results
  refine Eq.trans (b := maximumf (Gen.W4 m ρ c (Proc.devRef .tc main_v21))
    (broadcastInDim S50000x96 ![] bcast_S_S50000x96 (constant (F := Ideal) S_ .f32 0x00000000#32))) rfl ?_
  rw [W4_v21, maximumf_zeros]
  rfl

/-! ## Layer 2 -/

theorem W5_v1 (c : Dev nD) : Gen.W5 m ρ c (Proc.devRef .tc main_v1) = (Cert.Bridge.srcK (m ((c : Thread nD τ).loc main_arg1))) :=
  (keep2 _ main_v1 (by decide)).trans ((Gen.W4_of_ne m ρ c main_v1 (by decide)).trans
    ((W3_of_W1 m ρ c main_v1 (by decide) (by decide)).trans (W1_v1 m ρ c)))

/-- The second gather: layer 1's rows per edge. -/
theorem W6_v29 (c : Dev nD) : Gen.W6 m ρ c (Proc.devRef .tc main_v29) = Cert.Bridge.gathK (m ((c : Thread nD τ).loc main_arg1)) (h1 m c) := by
  have e1 := W5_v1 m ρ c
  have e22 := W5_v22 m ρ c
  show StableHlo.after hostOps2_1 (Gen.W5 m ρ c) (Proc.devRef .tc main_v29) = _
  generalize Gen.W5 m ρ c = V5 at e1 e22 ⊢
  after_results
  rw [e1, e22]
  rfl

theorem W6_arg2 (c : Dev nD) : Gen.W6 m ρ c (Proc.devRef .tc main_arg2) = m ((c : Thread nD τ).loc main_arg2) :=
  (W6_of_W2 m ρ c main_arg2 (by decide) (by decide) (by decide) (by decide)).trans ((W2_in_arg2 m ρ c).trans (W1_arg2 m ρ c))
theorem W6_arg3 (c : Dev nD) : Gen.W6 m ρ c (Proc.devRef .tc main_arg3) = m ((c : Thread nD τ).loc main_arg3) :=
  (W6_of_W2 m ρ c main_arg3 (by decide) (by decide) (by decide) (by decide)).trans ((W2_in_arg3 m ρ c).trans (W1_arg3 m ρ c))
theorem W6_arg5 (c : Dev nD) : Gen.W6 m ρ c (Proc.devRef .tc main_arg5) = m ((c : Thread nD τ).loc main_arg5) :=
  (W6_of_W2 m ρ c main_arg5 (by decide) (by decide) (by decide) (by decide)).trans ((W2_in_arg5 m ρ c).trans (W1_arg5 m ρ c))
theorem W6_v4 (c : Dev nD) : Cert.Gine.rowVec (Gen.W6 m ρ c (Proc.devRef .tc main_v4)) = m ((c : Thread nD τ).loc main_arg4) := by
  rw [W6_of_W2 m ρ c main_v4 (by decide) (by decide) (by decide) (by decide), W2_in_v4 m ρ c]
  exact W1_v4 m ρ c
theorem W6_v5 (c : Dev nD) : Cert.Gine.rowVec (Gen.W6 m ρ c (Proc.devRef .tc main_v5)) = m ((c : Thread nD τ).loc main_arg6) := by
  rw [W6_of_W2 m ρ c main_v5 (by decide) (by decide) (by decide) (by decide), W2_in_v5 m ρ c]
  exact W1_v5 m ρ c

/-- The third region's output: the messages of layer 2. -/
theorem W7_v30 (c : Dev nD) : Gen.W7 m ρ c (Proc.devRef .tc main_v30) = Cert.Gine.edgeMsg (m ((c : Thread nD τ).loc main_arg2)) (Cert.Bridge.gathK (m ((c : Thread nD τ).loc main_arg1)) (h1 m c)) (m ((c : Thread nD τ).loc main_arg3)) (m ((c : Thread nD τ).loc main_arg4)) (m ((c : Thread nD τ).loc main_arg5)) (m ((c : Thread nD τ).loc main_arg6)) :=
  (Gen.W7_arr m ρ c 6).trans ((Region2.final (Gen.V6 m ρ) c).trans (by
    show Cert.Gine.edgeMsg (Gen.W6 m ρ c (Proc.devRef .tc main_arg2)) (Gen.W6 m ρ c (Proc.devRef .tc main_v29)) (Gen.W6 m ρ c (Proc.devRef .tc main_arg3)) (Cert.Gine.rowVec (Gen.W6 m ρ c (Proc.devRef .tc main_v4)))
      (Gen.W6 m ρ c (Proc.devRef .tc main_arg5)) (Cert.Gine.rowVec (Gen.W6 m ρ c (Proc.devRef .tc main_v5))) = _
    rw [W6_arg2, W6_v29, W6_arg3, W6_v4, W6_arg5, W6_v5]))

theorem W7_v3 (c : Dev nD) : Gen.W7 m ρ c (Proc.devRef .tc main_v3) = (Cert.Bridge.dstK (m ((c : Thread nD τ).loc main_arg1))) :=
  (Gen.W7_of_ne m ρ c main_v3 (by decide)).trans
    ((W6_of_W2 m ρ c main_v3 (by decide) (by decide) (by decide) (by decide)).trans (W2_v3 m ρ c))

/-- The second scatter-add. -/
theorem W8_v33 (c : Dev nD) : Gen.W8 m ρ c (Proc.devRef .tc main_v33) = Cert.Bridge.scatK (m ((c : Thread nD τ).loc main_arg1)) (Cert.Gine.edgeMsg (m ((c : Thread nD τ).loc main_arg2)) (Cert.Bridge.gathK (m ((c : Thread nD τ).loc main_arg1)) (h1 m c)) (m ((c : Thread nD τ).loc main_arg3)) (m ((c : Thread nD τ).loc main_arg4)) (m ((c : Thread nD τ).loc main_arg5)) (m ((c : Thread nD τ).loc main_arg6))) := by
  show StableHlo.after hostOps3 (Gen.W7 m ρ c) (Proc.devRef .tc main_v33) = _
  after_results
  rw [W7_v3, W7_v30]
  rfl

theorem W8_v22 (c : Dev nD) : Gen.W8 m ρ c (Proc.devRef .tc main_v22) = h1 m c :=
  (W8_of_W6 m ρ c main_v22 (by decide) (by decide)).trans ((keep2_1 _ main_v22 (by decide)).trans (W5_v22 m ρ c))

theorem W8_arg11 (c : Dev nD) : Gen.W8 m ρ c (Proc.devRef .tc main_arg11) = m ((c : Thread nD τ).loc main_arg11) :=
  (W8_of_W6 m ρ c main_arg11 (by decide) (by decide)).trans
    ((W6_of_W2 m ρ c main_arg11 (by decide) (by decide) (by decide) (by decide)).trans
      ((Gen.W2_of_ne m ρ c main_arg11 (by decide)).trans (W1_arg11 m ρ c)))
theorem W8_arg13 (c : Dev nD) : Gen.W8 m ρ c (Proc.devRef .tc main_arg13) = m ((c : Thread nD τ).loc main_arg13) :=
  (W8_of_W6 m ρ c main_arg13 (by decide) (by decide)).trans
    ((W6_of_W2 m ρ c main_arg13 (by decide) (by decide) (by decide) (by decide)).trans
      ((Gen.W2_of_ne m ρ c main_arg13 (by decide)).trans (W1_arg13 m ρ c)))
theorem W8_v8 (c : Dev nD) : Cert.Gine.rowVec (Gen.W8 m ρ c (Proc.devRef .tc main_v8)) = m ((c : Thread nD τ).loc main_arg12) := by
  rw [W8_of_W6 m ρ c main_v8 (by decide) (by decide), W6_of_W2 m ρ c main_v8 (by decide) (by decide) (by decide) (by decide),
    Gen.W2_of_ne m ρ c main_v8 (by decide)]
  exact W1_v8 m ρ c
theorem W8_v9 (c : Dev nD) : Cert.Gine.rowVec (Gen.W8 m ρ c (Proc.devRef .tc main_v9)) = m ((c : Thread nD τ).loc main_arg14) := by
  rw [W8_of_W6 m ρ c main_v9 (by decide) (by decide), W6_of_W2 m ρ c main_v9 (by decide) (by decide) (by decide) (by decide),
    Gen.W2_of_ne m ρ c main_v9 (by decide)]
  exact W1_v9 m ρ c

/-- The fourth region's output: layer 2 before its last max. -/
theorem W9_v34 (c : Dev nD) : Gen.W9 m ρ c (Proc.devRef .tc main_v34) = Cert.Gine.layer (Cert.Bridge.gathK (m ((c : Thread nD τ).loc main_arg1))) (Cert.Bridge.scatK (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (h1 m c) (m ((c : Thread nD τ).loc main_arg11)) (m ((c : Thread nD τ).loc main_arg12)) (m ((c : Thread nD τ).loc main_arg13)) (m ((c : Thread nD τ).loc main_arg14)) :=
  (Gen.W9_arr m ρ c 6).trans ((Region3.final (Gen.V8 m ρ) c).trans (by
    show Cert.Gine.nodeMlp (Gen.W8 m ρ c (Proc.devRef .tc main_v22)) (Gen.W8 m ρ c (Proc.devRef .tc main_v33)) (Gen.W8 m ρ c (Proc.devRef .tc main_arg11)) (Cert.Gine.rowVec (Gen.W8 m ρ c (Proc.devRef .tc main_v8)))
      (Gen.W8 m ρ c (Proc.devRef .tc main_arg13)) (Cert.Gine.rowVec (Gen.W8 m ρ c (Proc.devRef .tc main_v9))) = _
    rw [W8_v22, W8_v33, W8_arg11, W8_v8, W8_arg13, W8_v9]
    rfl))

/-! ## The result -/

/-- The result buffer at the last boundary is the two-layer network of the launch arrays, over the program's own
    gather and scatter-add. -/
theorem result_eq (c : Dev nD) : Gen.W10 m ρ c (Proc.devRef .tc main_v35)
    = Cert.Gine.net (Cert.Bridge.gathK (m ((c : Thread nD τ).loc main_arg1))) (Cert.Bridge.scatK (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after hostOps4 (Gen.W9 m ρ c) (Proc.devRef .tc main_v35) = _
  after_results
  refine Eq.trans (b := maximumf (Gen.W9 m ρ c (Proc.devRef .tc main_v34))
    (broadcastInDim S50000x96 ![] bcast_S_S50000x96 (constant (F := Ideal) S_ .f32 0x00000000#32))) rfl ?_
  rw [W9_v34, maximumf_zeros]
  rfl

end Cert.KernelIdeal.Chain

end
-- ==== Proof.lean ====
/-
  The proof of `Cert.Claim` for a two-layer GINE graph network (50000 nodes, 800000 edges, 96 channels): the kernel
  program runs each layer as a host gather of source-node rows, an edge stage in 200 row blocks, a host scatter-add of
  the messages per target node and a node stage in 10 row blocks; the reference runs the same layers as whole-array
  host operations.

  On the extended reals both programs end at one and the same function of the argument arrays, the specification's
  `Cert.Gine.net` over the program's own gather and scatter-add:
  * the kernel program — each region's output array is its dense stage of the arrays the region found (every entry is
    written by the grid point that owns its row block; a change of float format is the identity and a matrix product
    into a zero accumulator is the plain sum over the contracted coordinate), and the result buffer's contents walk
    back through the host stretches and regions to the launch arrays;
  * the reference — its stages read at an index are the same sums in the same order; its first contraction runs over
    an axis of size one, so that sum is its single term;
  * the gather and the scatter-add are the same host operations in both programs and are never opened.
  No algebraic law and no finiteness of the inputs is needed: the two sides are the same expression entry by entry.
  The idealization pass rewrote nothing, so `preserves` is trivial; the frames are the generated ones, the
  reference's being its run with the result dropped.
-/
import proofs.«105474_j29618094473563_1_alg».proof.Defs
import proofs.«105474_j29618094473563_1_alg».proof.Proof.Gen.Kernel
import proofs.«105474_j29618094473563_1_alg».proof.Proof.Gen.Kernel.Skeleton
import proofs.«105474_j29618094473563_1_alg».proof.Proof.Gen.Kernel.Launch
import proofs.«105474_j29618094473563_1_alg».proof.Proof.Gen.Kernel.Points
import proofs.«105474_j29618094473563_1_alg».proof.Proof.Gen.Kernel.Frame
import proofs.«105474_j29618094473563_1_alg».proof.Proof.Gen.KernelIdeal
import proofs.«105474_j29618094473563_1_alg».proof.Proof.Gen.KernelIdeal.Skeleton
import proofs.«105474_j29618094473563_1_alg».proof.Proof.Gen.KernelIdeal.Launch
import proofs.«105474_j29618094473563_1_alg».proof.Proof.Gen.KernelIdeal.Points
import proofs.«105474_j29618094473563_1_alg».proof.Proof.Gen.KernelIdeal.Frame
import proofs.«105474_j29618094473563_1_alg».proof.Proof.Gen.ReferenceIdeal
import proofs.«105474_j29618094473563_1_alg».proof.Proof.Gen.Pre_finite_inputs
import proofs.«105474_j29618094473563_1_alg».proof.Proof.Gen.ReferenceIdeal.Read
import proofs.«105474_j29618094473563_1_alg».proof.Proof.RefNet
import proofs.«105474_j29618094473563_1_alg».proof.Proof.Bridge
import proofs.«105474_j29618094473563_1_alg».proof.Proof.KernelRun
import proofs.«105474_j29618094473563_1_alg».proof.Proof.KernelChain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The idealization pass rewrote no operation. -/
theorem preserves : Cert.preserves_Kernel_KernelIdeal := trivial

/-- The network of the kernel program's launch arrays: what both programs' results are. -/
def out (m : (ℓ : Loc Cert.KernelIdeal.nD Cert.KernelIdeal.τ Cert.KernelIdeal.sig) → Buf (Elt Ideal) ℓ)
    (c : Dev Cert.KernelIdeal.nD) : Buf (Elt Ideal) ((c.tc : Thread Cert.KernelIdeal.nD Cert.KernelIdeal.τ).loc Cert.KernelIdeal.main_v35) :=
  Cert.Gine.net (Cert.Bridge.gathK (m ((c.tc : Thread Cert.KernelIdeal.nD Cert.KernelIdeal.τ).loc Cert.KernelIdeal.main_arg1))) (Cert.Bridge.scatK (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))

/-- From memories that agree on the arguments, the kernel program's result buffer and the reference's end at the same
    network of the argument arrays. -/
theorem algebraic : Cert.algebraic_KernelIdeal_ReferenceIdeal := by
  intro m ρ m' ρ' _ hagree
  refine ⟨out m, ?_, ?_⟩
  · exact (θ_run Cert.KernelIdeal.defs _ _).mono
      (fun _ h c => ⟨(h c).1.trans (Cert.KernelIdeal.Chain.result_eq m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13, a14⟩ := hagree c
    rw [Cert.ReferenceIdeal.Read.val_main_v60_eq, a0, a1, a2, a3, a4, a5, a6, a7, a8, a9, a10, a11, a12, a13, a14, Cert.RefNet.ref_net,
      ← Cert.Bridge.gath_eq, ← Cert.Bridge.scat_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
